-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_arg10 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S25000x128 : Shape := ⟨2, ![25000, 128]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩

abbrev nBuf : Space → Nat
  | .hbm => 108
  | .vmem => 27
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S25000x128, .f32⟩
  | .hbm, ⟨29, _⟩ => ⟨S25000x128, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x128, .f32⟩
  | .hbm, ⟨34, _⟩ => ⟨S64x128, .f32⟩
  | .hbm, ⟨35, _⟩ => ⟨S128x128, .f32⟩
  | .hbm, ⟨36, _⟩ => ⟨S64x64, .f32⟩
  | .hbm, ⟨37, _⟩ => ⟨S_, .f32⟩
  | .hbm, ⟨38, _⟩ => ⟨S64x64, .f32⟩
  | .hbm, ⟨39, _⟩ => ⟨S64x128, .f32⟩
  | .hbm, ⟨40, _⟩ => ⟨S64x128, .f32⟩
  | .hbm, ⟨41, _⟩ => ⟨S128x128, .f32⟩
  | .hbm, ⟨42, _⟩ => ⟨S128, .f32⟩
  | .hbm, ⟨43, _⟩ => ⟨S1x128, .f32⟩
  | .hbm, ⟨44, _⟩ => ⟨S25000x128, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S25000x128, .f32⟩
  | .hbm, ⟨60, _⟩ => ⟨S25000x128, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x128, .f32⟩
  | .hbm, ⟨65, _⟩ => ⟨S64x128, .f32⟩
  | .hbm, ⟨66, _⟩ => ⟨S128x128, .f32⟩
  | .hbm, ⟨67, _⟩ => ⟨S64x64, .f32⟩
  | .hbm, ⟨68, _⟩ => ⟨S_, .f32⟩
  | .hbm, ⟨69, _⟩ => ⟨S64x64, .f32⟩
  | .hbm, ⟨70, _⟩ => ⟨S64x128, .f32⟩
  | .hbm, ⟨71, _⟩ => ⟨S64x128, .f32⟩
  | .hbm, ⟨72, _⟩ => ⟨S128x128, .f32⟩
  | .hbm, ⟨73, _⟩ => ⟨S128, .f32⟩
  | .hbm, ⟨74, _⟩ => ⟨S1x128, .f32⟩
  | .hbm, ⟨75, _⟩ => ⟨S25000x128, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S25000x128, .f32⟩
  | .hbm, ⟨91, _⟩ => ⟨S25000x128, .f32⟩
  | .hbm, ⟨92, _⟩ => ⟨S64x64, .f32⟩
  | .hbm, ⟨93, _⟩ => ⟨S_, .f32⟩
  | .hbm, ⟨94, _⟩ => ⟨S64x64, .f32⟩
  | .hbm, ⟨95, _⟩ => ⟨S64x128, .f32⟩
  | .hbm, ⟨96, _⟩ => ⟨S64x128, .f32⟩
  | .hbm, ⟨97, _⟩ => ⟨S128x128, .f32⟩
  | .hbm, ⟨98, _⟩ => ⟨S64x64, .f32⟩
  | .hbm, ⟨99, _⟩ => ⟨S_, .f32⟩
  | .hbm, ⟨100, _⟩ => ⟨S64x64, .f32⟩
  | .hbm, ⟨101, _⟩ => ⟨S64x128, .f32⟩
  | .hbm, ⟨102, _⟩ => ⟨S64x128, .f32⟩
  | .hbm, ⟨103, _⟩ => ⟨S128x128, .f32⟩
  | .hbm, ⟨104, _⟩ => ⟨S128, .f32⟩
  | .hbm, ⟨105, _⟩ => ⟨S1x128, .f32⟩
  | .hbm, ⟨106, _⟩ => ⟨S25000x128, .f32⟩
  | .hbm, ⟨107, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_3 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_8 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S50000x64_S25000x128 : S50000x64.ShapeCasts S25000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S50000x64 : S25000x128.ShapeCasts S50000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S25000x128.size a
  hwx1_5 : ∀ i : grid1.Coords, EltTy.bits .f32 = 32 ∨ (Rect.block (s := S25000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S25000x128.size a
  hwx2_5 : ∀ i : grid2.Coords, EltTy.bits .f32 = 32 ∨ (Rect.block (s := S25000x128) S5000x128.size (cc2_transform_5 i) (hinb2_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | .hbm, ⟨28, _⟩ => ⟨S64x64, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | .hbm, ⟨33, _⟩ => ⟨S64x64, .f32⟩
  | .hbm, ⟨34, _⟩ => ⟨S50000x64, .f32⟩
  | .hbm, ⟨35, _⟩ => ⟨S50000x64, .f32⟩
  | .hbm, ⟨36, _⟩ => ⟨S_, .f32⟩
  | .hbm, ⟨37, _⟩ => ⟨S50000x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S64x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S64x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S64x64, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S64x64, .f32⟩
  | .hbm, ⟨82, _⟩ => ⟨S50000x64, .f32⟩
  | .hbm, ⟨83, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRun.lean ====
/-
  The kernel program's run with its result named. The program is three pallas_calls among four stretches of host
  operations; its generated frame follows the buffers' contents through the seven segments (`W0` … `W7`) and reads
  the last thread state against the final memory. Read there as well, the result buffer ends at `W7` of itself:
  every weakly fair execution terminates with the result array at the fold's last contents and the arguments as launched.
-/
import proofs.«118596_j89790586290566_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result buffer at the
    last boundary's contents and the argument arrays as launched. -/
theorem run_value : θ_run defs (onTc (τ := τ) (main (F := F))) ⟨m, fun _ => 0, ρ⟩ (fun r => ∀ c : Dev nD,
      r.2.mem ((c.tc : Thread nD τ).loc main_v81) = W7 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v81 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Hand

end
-- ==== Proof.KDefs.lean ====
/-
  The host-side functions of the GraphConv stack, as the kernel's program applies them, each ONE definition
  over the printed program's own shapes and dimension records: the source and destination rows of the edge list,
  the neighbour sum (gather the source rows, scatter-add them at the destination rows), the block-diagonal
  128x128 weight [[Wᵀ,0],[0,Wᵀ]], the doubled bias row, the pairing of node rows [50000,64] <-> [25000,128],
  the combine a pallas_call computes on the paired view, and one layer of the stack.
-/
import proofs.«118596_j89790586290566_2_alg».proof.Proof.Gen.KernelIdeal
import Idealize.ShloMosaic.Lib.ValueIdx

noncomputable section

namespace Cert.GConv

open Idealize.ShloMosaic Idealize.ShloMosaic.ValueIdx Cert.KernelIdeal Cert.KernelIdeal.Gen

variable {F : FTy → Type} [FloatOps F]

/-- Row 0 of the edge list: the source node of every edge. -/
def srcOf (E : (⟨S2x800000, .i32⟩ : BufTy).Contents (Elt F)) : (⟨S800000, .i32⟩ : BufTy).Contents (Elt F) :=
  shapeCast _ (extractStridedSlice S1x800000 ![0, 0] E slices_S2x800000_S1x800000_0_0) shapeCasts_S1x800000_S800000

/-- Row 1 of the edge list: the destination node of every edge. -/
def dstOf (E : (⟨S2x800000, .i32⟩ : BufTy).Contents (Elt F)) : (⟨S800000, .i32⟩ : BufTy).Contents (Elt F) :=
  shapeCast _ (extractStridedSlice S1x800000 ![1, 0] E slices_S2x800000_S1x800000_1_0) shapeCasts_S1x800000_S800000

/-- The neighbour sum: row `n` is the sum of the rows `X[s e]` over the edges `e` with `d e = n` (a negative source
    index wrapped by 50000 first, as jnp indexing does). -/
def aggK (X : (⟨S50000x64, .f32⟩ : BufTy).Contents (Elt F)) (s d : (⟨S800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d)
    (Host.gather gather_S50000x64_S800000x1_S800000x64_1_0_n_n_0_1_164 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The block-diagonal weight [[Wᵀ, 0], [0, Wᵀ]] of a 64x64 weight `W`. -/
def bdK (W : (⟨S64x64, .f32⟩ : BufTy).Contents (Elt F)) : (⟨S128x128, .f32⟩ : BufTy).Contents (Elt F) :=
  concatenate S128x128 0
    [⟨S64x128, concatenate S64x128 1 [⟨S64x64, transpose S64x64 [1, 0] W transposes_S64x64_S64x64_1_0⟩,
        ⟨S64x64, broadcastInDim S64x64 ![] bcast_S_S64x64 (constant S_ .f32 0x00000000#32)⟩] concatenates_S64x64_S64x64_S64x128_d1⟩,
     ⟨S64x128, concatenate S64x128 1 [⟨S64x64, broadcastInDim S64x64 ![] bcast_S_S64x64 (constant S_ .f32 0x00000000#32)⟩,
        ⟨S64x64, transpose S64x64 [1, 0] W transposes_S64x64_S64x64_1_0⟩] concatenates_S64x64_S64x64_S64x128_d1⟩]
    concatenates_S64x128_S64x128_S128x128_d0

/-- The bias twice, as one row of 128. -/
def rowK (b : (⟨S64, .f32⟩ : BufTy).Contents (Elt F)) : (⟨S1x128, .f32⟩ : BufTy).Contents (Elt F) :=
  shapeCast _ (concatenate S128 0 [⟨S64, b⟩, ⟨S64, b⟩] concatenates_S64_S64_S128_d0) shapeCasts_S128_S1x128

/-- Two adjacent node rows as one row of 128. -/
def packK (X : (⟨S50000x64, .f32⟩ : BufTy).Contents (Elt F)) : (⟨S25000x128, .f32⟩ : BufTy).Contents (Elt F) :=
  shapeCast _ X shapeCasts_S50000x64_S25000x128

/-- A row of 128 back as two node rows. -/
def unpackK (Y : (⟨S25000x128, .f32⟩ : BufTy).Contents (Elt F)) : (⟨S50000x64, .f32⟩ : BufTy).Contents (Elt F) :=
  shapeCast _ Y shapeCasts_S25000x128_S50000x64

end Cert.GConv

end
-- ==== Proof.KHost.lean ====
/-
  The kernel program's host operations, read: what each stretch of host operations leaves in the buffers the next
  pallas_call is entered with, as the named host functions of the buffers the stretch starts from.

  A stretch is a straight line of operations, each writing one buffer of its own from buffers written earlier or held
  at the start. Reading a buffer after the stretch therefore unwinds to a composition of the operations' functions
  over the starting contents: at the operation that writes the buffer, its function of its operands' contents; at every
  other operation, what was there before. That composition is, term for term, the named host function.
-/
import proofs.«118596_j89790586290566_2_alg».proof.Proof.Gen.KernelIdeal.Launch
import proofs.«118596_j89790586290566_2_alg».proof.Proof.KDefs
import Idealize.ShloMosaic.Lib.StableHlo.Run

noncomputable section

namespace Cert.GConv

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F]

section
variable (W : Valuation τ sig (Elt F))

/-! ## Before the first pallas_call -/
theorem host0_v1 : after hostOps0 W (Proc.devRef .tc main_v1) = srcOf (F := F) (W (Proc.devRef .tc main_arg1)) := by
  after_results_simp <;> rfl
theorem host0_v3 : after hostOps0 W (Proc.devRef .tc main_v3) = dstOf (F := F) (W (Proc.devRef .tc main_arg1)) := by
  after_results_simp <;> rfl
theorem host0_v14 : after hostOps0 W (Proc.devRef .tc main_v14)
    = packK (F := F) (aggK (F := F) (W (Proc.devRef .tc main_arg0)) (srcOf (F := F) (W (Proc.devRef .tc main_arg1))) (dstOf (F := F) (W (Proc.devRef .tc main_arg1)))) := by
  after_results_simp <;> rfl
theorem host0_v15 : after hostOps0 W (Proc.devRef .tc main_v15) = packK (F := F) (W (Proc.devRef .tc main_arg0)) := by
  after_results_simp <;> rfl
theorem host0_v20 : after hostOps0 W (Proc.devRef .tc main_v20) = bdK (F := F) (W (Proc.devRef .tc main_arg2)) := by
  after_results_simp <;> rfl
theorem host0_v27 : after hostOps0 W (Proc.devRef .tc main_v27) = rowK (F := F) (W (Proc.devRef .tc main_arg3)) := by
  after_results_simp <;> rfl
theorem host0_v25 : after hostOps0 W (Proc.devRef .tc main_v25) = bdK (F := F) (W (Proc.devRef .tc main_arg4)) := by
  after_results_simp <;> rfl

/-! ## Between the first and the second -/
theorem host1_v40 : after hostOps1 W (Proc.devRef .tc main_v40)
    = packK (F := F) (aggK (F := F) (unpackK (F := F) (W (Proc.devRef .tc main_v28))) (W (Proc.devRef .tc main_v1)) (W (Proc.devRef .tc main_v3))) := by
  after_results_simp <;> rfl
theorem host1_v41 : after hostOps1 W (Proc.devRef .tc main_v41) = packK (F := F) (unpackK (F := F) (W (Proc.devRef .tc main_v28))) := by
  after_results_simp <;> rfl
theorem host1_v46 : after hostOps1 W (Proc.devRef .tc main_v46) = bdK (F := F) (W (Proc.devRef .tc main_arg5)) := by
  after_results_simp <;> rfl
theorem host1_v53 : after hostOps1 W (Proc.devRef .tc main_v53) = rowK (F := F) (W (Proc.devRef .tc main_arg6)) := by
  after_results_simp <;> rfl
theorem host1_v51 : after hostOps1 W (Proc.devRef .tc main_v51) = bdK (F := F) (W (Proc.devRef .tc main_arg7)) := by
  after_results_simp <;> rfl

/-! ## Between the second and the third -/
theorem host2_v66 : after hostOps2 W (Proc.devRef .tc main_v66)
    = packK (F := F) (aggK (F := F) (unpackK (F := F) (W (Proc.devRef .tc main_v54))) (W (Proc.devRef .tc main_v1)) (W (Proc.devRef .tc main_v3))) := by
  after_results_simp <;> rfl
theorem host2_v67 : after hostOps2 W (Proc.devRef .tc main_v67) = packK (F := F) (unpackK (F := F) (W (Proc.devRef .tc main_v54))) := by
  after_results_simp <;> rfl
theorem host2_v72 : after hostOps2 W (Proc.devRef .tc main_v72) = bdK (F := F) (W (Proc.devRef .tc main_arg8)) := by
  after_results_simp <;> rfl
theorem host2_v79 : after hostOps2 W (Proc.devRef .tc main_v79) = rowK (F := F) (W (Proc.devRef .tc main_arg9)) := by
  after_results_simp <;> rfl
theorem host2_v77 : after hostOps2 W (Proc.devRef .tc main_v77) = bdK (F := F) (W (Proc.devRef .tc main_arg10)) := by
  after_results_simp <;> rfl

/-! ## After the third -/
theorem host3_v81 : after hostOps3 W (Proc.devRef .tc main_v81) = unpackK (F := F) (W (Proc.devRef .tc main_v80)) := by
  after_results_simp <;> rfl

/-! ## Buffers a stretch leaves alone

No operation of the stretch writes these buffers, so each holds after the stretch what it held before: the weights and
biases of the later layers through every earlier stretch, and the source and destination rows of the edge list, computed
once before the first pallas_call, through the two stretches that read them again. -/
theorem keep0_arg5 : after hostOps0 W (Proc.devRef .tc main_arg5) = W (Proc.devRef .tc main_arg5) := by after_results_simp
theorem keep0_arg6 : after hostOps0 W (Proc.devRef .tc main_arg6) = W (Proc.devRef .tc main_arg6) := by after_results_simp
theorem keep0_arg7 : after hostOps0 W (Proc.devRef .tc main_arg7) = W (Proc.devRef .tc main_arg7) := by after_results_simp
theorem keep0_arg8 : after hostOps0 W (Proc.devRef .tc main_arg8) = W (Proc.devRef .tc main_arg8) := by after_results_simp
theorem keep0_arg9 : after hostOps0 W (Proc.devRef .tc main_arg9) = W (Proc.devRef .tc main_arg9) := by after_results_simp
theorem keep0_arg10 : after hostOps0 W (Proc.devRef .tc main_arg10) = W (Proc.devRef .tc main_arg10) := by after_results_simp
theorem keep1_v1 : after hostOps1 W (Proc.devRef .tc main_v1) = W (Proc.devRef .tc main_v1) := by after_results_simp
theorem keep1_v3 : after hostOps1 W (Proc.devRef .tc main_v3) = W (Proc.devRef .tc main_v3) := by after_results_simp
theorem keep1_arg5 : after hostOps1 W (Proc.devRef .tc main_arg5) = W (Proc.devRef .tc main_arg5) := by after_results_simp
theorem keep1_arg6 : after hostOps1 W (Proc.devRef .tc main_arg6) = W (Proc.devRef .tc main_arg6) := by after_results_simp
theorem keep1_arg7 : after hostOps1 W (Proc.devRef .tc main_arg7) = W (Proc.devRef .tc main_arg7) := by after_results_simp
theorem keep1_arg8 : after hostOps1 W (Proc.devRef .tc main_arg8) = W (Proc.devRef .tc main_arg8) := by after_results_simp
theorem keep1_arg9 : after hostOps1 W (Proc.devRef .tc main_arg9) = W (Proc.devRef .tc main_arg9) := by after_results_simp
theorem keep1_arg10 : after hostOps1 W (Proc.devRef .tc main_arg10) = W (Proc.devRef .tc main_arg10) := by after_results_simp
theorem keep2_v1 : after hostOps2 W (Proc.devRef .tc main_v1) = W (Proc.devRef .tc main_v1) := by after_results_simp
theorem keep2_v3 : after hostOps2 W (Proc.devRef .tc main_v3) = W (Proc.devRef .tc main_v3) := by after_results_simp
theorem keep2_arg5 : after hostOps2 W (Proc.devRef .tc main_arg5) = W (Proc.devRef .tc main_arg5) := by after_results_simp
theorem keep2_arg6 : after hostOps2 W (Proc.devRef .tc main_arg6) = W (Proc.devRef .tc main_arg6) := by after_results_simp
theorem keep2_arg7 : after hostOps2 W (Proc.devRef .tc main_arg7) = W (Proc.devRef .tc main_arg7) := by after_results_simp
theorem keep2_arg8 : after hostOps2 W (Proc.devRef .tc main_arg8) = W (Proc.devRef .tc main_arg8) := by after_results_simp
theorem keep2_arg9 : after hostOps2 W (Proc.devRef .tc main_arg9) = W (Proc.devRef .tc main_arg9) := by after_results_simp
theorem keep2_arg10 : after hostOps2 W (Proc.devRef .tc main_arg10) = W (Proc.devRef .tc main_arg10) := by after_results_simp

end

end Cert.GConv

end
-- ==== Proof.Spec.lean ====
/-
  The mathematics of the GraphConv stack on the extended reals, stated once over literal shapes.

  One layer takes the neighbour sums `A` and the node features `X` (both [50000, 64]) to
  `A · Wrelᵀ + b + X · Wrootᵀ`: at node `n` and output feature `c`,
  `∑ k, A(n,k) · Wrel(c,k) + b(c) + ∑ k, X(n,k) · Wroot(c,k)`.

  The kernel computes the same on the PAIRED view: two adjacent node rows as one row of 128 lanes, against a
  128x128 block-diagonal weight and the bias doubled — `combine`: at paired row `r` and lane `j`,
  `∑ k<128, A2(r,k) · Brel(k,j) + ∑ k<128, X2(r,k) · Broot(k,j) + b2(0,j)`, then the positive part where the
  layer has one.
-/
import Idealize.ShloMosaic.PureOps.Ideal
import Idealize.ShloMosaic.Lib.ValueIdx

noncomputable section

namespace Cert.GConv

open Idealize.ShloMosaic Idealize.ShloMosaic.ValueIdx

/-- The positive part, where the layer has one. -/
def reluIf (r : Bool) (x : EReal) : EReal := if r then max x 0 else x

/-- One GraphConv layer on the extended reals: `A · Wrelᵀ + b + X · Wrootᵀ`. -/
def layer (A X : (⟨2, ![50000, 64]⟩ : Shape).Idx → EReal) (Wrel : (⟨2, ![64, 64]⟩ : Shape).Idx → EReal)
    (b : (⟨1, ![64]⟩ : Shape).Idx → EReal) (Wroot : (⟨2, ![64, 64]⟩ : Shape).Idx → EReal) :
    (⟨2, ![50000, 64]⟩ : Shape).Idx → EReal :=
  fun i => (∑ k : Fin 64, A (ix2 (i 0) k) * Wrel (ix2 (i 1) k)) + b (ix1 (i 1))
    + ∑ k : Fin 64, X (ix2 (i 0) k) * Wroot (ix2 (i 1) k)

/-- A layer followed, or not, by the positive part. -/
def layerR (r : Bool) (A X : (⟨2, ![50000, 64]⟩ : Shape).Idx → EReal) (Wrel : (⟨2, ![64, 64]⟩ : Shape).Idx → EReal)
    (b : (⟨1, ![64]⟩ : Shape).Idx → EReal) (Wroot : (⟨2, ![64, 64]⟩ : Shape).Idx → EReal) :
    (⟨2, ![50000, 64]⟩ : Shape).Idx → EReal :=
  fun i => reluIf r (layer A X Wrel b Wroot i)

/-- What one pallas_call leaves on the paired view: both products over the 128 lanes, the bias row, the positive part. -/
def combine (r : Bool) (A2 X2 : (⟨2, ![25000, 128]⟩ : Shape).Idx → EReal) (Brel : (⟨2, ![128, 128]⟩ : Shape).Idx → EReal)
    (b2 : (⟨2, ![1, 128]⟩ : Shape).Idx → EReal) (Broot : (⟨2, ![128, 128]⟩ : Shape).Idx → EReal) :
    (⟨2, ![25000, 128]⟩ : Shape).Idx → EReal :=
  fun i => reluIf r (((∑ k : Fin 128, A2 (ix2 (i 0) k) * Brel (ix2 k (i 1)))
    + ∑ k : Fin 128, X2 (ix2 (i 0) k) * Broot (ix2 k (i 1))) + b2 (ix2 (0 : Fin 1) (i 1)))

end Cert.GConv

end
-- ==== Proof.KLayer.lean ====
/-
  One layer of the stack as the kernel's program computes it: the neighbour sums and the node features paired two rows
  to a row of 128, the combine on the paired view against the block-diagonal weights and the doubled bias, and the
  result unpaired.
-/
import proofs.«118596_j89790586290566_2_alg».proof.Proof.KDefs
import proofs.«118596_j89790586290566_2_alg».proof.Proof.Spec

noncomputable section

namespace Cert.GConv

open Idealize.ShloMosaic Idealize.ShloMosaic.TcCoe Idealize.ShloMosaic.ValueIdx Idealize.SL.Sem
open Cert.KernelIdeal Cert.KernelIdeal.Gen

/-- One layer as the kernel's program computes it, on the extended reals. -/
def layerK (r : Bool) (X : (⟨S50000x64, .f32⟩ : BufTy).Contents (Elt Ideal))
    (s d : (⟨S800000, .i32⟩ : BufTy).Contents (Elt Ideal))
    (Wrel : (⟨S64x64, .f32⟩ : BufTy).Contents (Elt Ideal)) (b : (⟨S64, .f32⟩ : BufTy).Contents (Elt Ideal))
    (Wroot : (⟨S64x64, .f32⟩ : BufTy).Contents (Elt Ideal)) : (⟨S50000x64, .f32⟩ : BufTy).Contents (Elt Ideal) :=
  unpackK (F := Ideal) (combine r (packK (F := Ideal) (aggK (F := Ideal) X s d)) (packK (F := Ideal) X)
    (bdK (F := Ideal) Wrel) (rowK (F := Ideal) b) (bdK (F := Ideal) Wroot))

end Cert.GConv

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.KRegion0.lean ====
/-
  Region 0: what the pallas_call leaves in its output array, as one function of the arrays it is entered with.

  The call runs over five row blocks of [5000, 128]. At point `t` the body holds rows `5000 t … 5000 t + 4999` of the paired
  neighbour sums and of the paired features, and the whole of the two 128x128 weights and of the [1, 128] bias row. Its
  value at row `p`, lane `q` of the block is  ∑ k<128, A2(5000 t + p, k) · Brel(k, q) + ∑ k<128, X2(5000 t + p, k) · Broot(k, q)
  + b2(0, q), then the positive part: on the extended reals the changes of float format are the identity and each product into the zero
  accumulator is the plain sum over the shared axis. Every point writes its block back and the five blocks tile the
  [25000, 128] output, so the array ends holding the combine of the five arrays at every index.
-/
import proofs.«118596_j89790586290566_2_alg».proof.Proof.Gen.KernelIdeal.Frame
import proofs.«118596_j89790586290566_2_alg».proof.Proof.Spec
import proofs.«118596_j89790586290566_2_alg».proof.Proof.LibMatmulSum
import Idealize.ShloMosaic.Lib.Pipeline.Value
import Idealize.ShloMosaic.Lib.ValueLayout

noncomputable section

namespace Cert.GConv

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a whole-block load or store, spelt as the constant function. -/
theorem zeroOff0 : (![0, 0] : Fin 2 → Nat) = fun _ => 0 := funext fun a => by fin_cases a <;> rfl

/-- One matrix product of the body at an index: the sum over the 128 lanes of the products. -/
theorem mm0_apply (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) :=
  MatmulSum.matmul_zero_apply dot_S5000x128_S128x128_S5000x128_1_0_0_1_n_n rfl rfl rfl rfl rfl rfl none l r (ix2 p q)

/-- The body's value at row `p`, lane `q` of its block: both products summed over the 128 lanes, the bias row's
    entry at lane `q` added, and the positive part taken. The changes of float format are the identity on the
    extended reals, the accumulator is the zero splat, and the bias row is read at its one row. -/
theorem pay0_apply (x0 x1 : Vec Ideal S5000x128 .f32) (x2 x4 : Vec Ideal S128x128 .f32) (x3 : Vec Ideal S1x128 .f32)
    (p : Fin 5000) (q : Fin 128) :
    k0_pay1 x0 x1 x2 x4 x3 (ix2 p q)
      = reluIf true (((∑ k : Fin 128, x0 (ix2 p k) * x2 (ix2 k q)) + ∑ k : Fin 128, x1 (ix2 p k) * x4 (ix2 k q))
          + x3 (ix2 (0 : Fin 1) q)) := by
  unfold k0_pay1
  rw [shapeCast_self, shapeCast_self, shapeCast_self, shapeCast_self, shapeCast_self]
  refine (maximumf_apply _ _ _).trans ?_
  rw [broadcast_apply, addf_apply, addf_apply]
  have e1 := mm0_apply (truncf .bf16 x0 bitsLt_bf16_f32) (truncf .bf16 x2 bitsLt_bf16_f32) p q
  have e2 := mm0_apply (truncf .bf16 x1 bitsLt_bf16_f32) (truncf .bf16 x4 bitsLt_bf16_f32) p q
  have e3 := broadcastTo_1b_ab_apply x3 broadcasts_S1x128_S5000x128 p q
  unfold reluIf
  rw [if_pos rfl]
  exact congrArg₂ max (congrArg₂ (· + ·) (congrArg₂ (· + ·) e1 e2) e3) Ideal.ofBits_zero_f32

/-- The printed index maps, decided once over the five grid points: the two row-blocked inputs and the output sit at
    row block `t`, the two weights and the bias row at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The combine at array index `i` from block-local reads: when the five blocks a point holds agree with the five arrays at
    the rows and lanes the index `i` names, the body's sum-of-products at (`p`, `q`) is the combine at `i`. -/
theorem combine_of_reads0 (A X : S25000x128.Idx → EReal) (B Br : S128x128.Idx → EReal) (b : S1x128.Idx → EReal)
    (a x : Vec Ideal S5000x128 .f32) (w wr : Vec Ideal S128x128 .f32) (bb : Vec Ideal S1x128 .f32)
    (p : Fin 5000) (q : Fin 128) (i : S25000x128.Idx)
    (ha : ∀ k : Fin 128, a (ix2 p k) = A (ix2 (i 0) k)) (hx : ∀ k : Fin 128, x (ix2 p k) = X (ix2 (i 0) k))
    (hw : ∀ k : Fin 128, w (ix2 k q) = B (ix2 k (i 1))) (hwr : ∀ k : Fin 128, wr (ix2 k q) = Br (ix2 k (i 1)))
    (hb : bb (ix2 (0 : Fin 1) q) = b (ix2 (0 : Fin 1) (i 1))) :
    reluIf true (((∑ k : Fin 128, a (ix2 p k) * w (ix2 k q)) + ∑ k : Fin 128, x (ix2 p k) * wr (ix2 k q))
        + bb (ix2 (0 : Fin 1) q)) = combine true A X B b Br i := by
  unfold combine
  refine congrArg (reluIf true) (congrArg₂ (· + ·) (congrArg₂ (· + ·) ?_ ?_) hb)
  · exact Finset.sum_congr rfl fun k _ => by rw [ha k, hw k]
  · exact Finset.sum_congr rfl fun k _ => by rw [hx k, hwr k]

section Blocks0

variable (V : (c : Dev nD) → (b : Ref sig .tc) → Buf (Elt Ideal) ((c : Thread nD τ).loc b))

/-- The block of the paired neighbour sums at point `t` is rows `5000 t … 5000 t + 4999` of the array. -/
theorem blk0_0 (c : Dev nD) (t : Fin cfg0.N) (y : S5000x128.Idx) (i : S25000x128.Idx)
    (h0 : (i 0).val = t.val * 5000 + (y 0).val) (h1 : (i 1).val = (y 1).val) :
    (iblk0 V c 0 t : Vec Ideal S5000x128 .f32) y = (V c main_v14 : S25000x128.Idx → EReal) i := by
  have hi := idx0 t
  unfold iblk0
  rw [View.read_apply]
  show V c main_v14 _ = V c main_v14 _
  congr 1
  funext a
  apply Fin.ext
  match a with
  | ⟨0, _⟩ => show win0_0.index t 0 * 5000 + 1 * (y 0).val = (i 0).val; rw [hi.1, h0]; omega
  | ⟨1, _⟩ => show win0_0.index t 1 * 128 + 1 * (y 1).val = (i 1).val; rw [hi.2.1, h1]; omega

/-- The block of the paired features at point `t` is the same rows of its array. -/
theorem blk0_1 (c : Dev nD) (t : Fin cfg0.N) (y : S5000x128.Idx) (i : S25000x128.Idx)
    (h0 : (i 0).val = t.val * 5000 + (y 0).val) (h1 : (i 1).val = (y 1).val) :
    (iblk0 V c 1 t : Vec Ideal S5000x128 .f32) y = (V c main_v15 : S25000x128.Idx → EReal) i := by
  have hi := idx0 t
  unfold iblk0
  rw [View.read_apply]
  show V c main_v15 _ = V c main_v15 _
  congr 1
  funext a
  apply Fin.ext
  match a with
  | ⟨0, _⟩ => show win0_1.index t 0 * 5000 + 1 * (y 0).val = (i 0).val; rw [hi.2.2.1, h0]; omega
  | ⟨1, _⟩ => show win0_1.index t 1 * 128 + 1 * (y 1).val = (i 1).val; rw [hi.2.2.2.1, h1]; omega

/-- The first weight's block at every point is the whole 128x128 array. -/
theorem blk0_2 (c : Dev nD) (t : Fin cfg0.N) (y : S128x128.Idx) (i : S128x128.Idx)
    (h0 : (i 0).val = (y 0).val) (h1 : (i 1).val = (y 1).val) :
    (iblk0 V c 2 t : Vec Ideal S128x128 .f32) y = (V c main_v20 : S128x128.Idx → EReal) i := by
  have hi := idx0 t
  unfold iblk0
  rw [View.read_apply]
  show V c main_v20 _ = V c main_v20 _
  congr 1
  funext a
  apply Fin.ext
  match a with
  | ⟨0, _⟩ => show win0_2.index t 0 * 128 + 1 * (y 0).val = (i 0).val; rw [hi.2.2.2.2.1, h0]; omega
  | ⟨1, _⟩ => show win0_2.index t 1 * 128 + 1 * (y 1).val = (i 1).val; rw [hi.2.2.2.2.2.1, h1]; omega

/-- The bias row's block at every point is the whole [1,128] array. -/
theorem blk0_3 (c : Dev nD) (t : Fin cfg0.N) (y : S1x128.Idx) (i : S1x128.Idx)
    (h0 : (i 0).val = (y 0).val) (h1 : (i 1).val = (y 1).val) :
    (iblk0 V c 3 t : Vec Ideal S1x128 .f32) y = (V c main_v27 : S1x128.Idx → EReal) i := by
  have hi := idx0 t
  unfold iblk0
  rw [View.read_apply]
  show V c main_v27 _ = V c main_v27 _
  congr 1
  funext a
  apply Fin.ext
  match a with
  | ⟨0, _⟩ => show win0_3.index t 0 * 1 + 1 * (y 0).val = (i 0).val; rw [hi.2.2.2.2.2.2.1, h0]; omega
  | ⟨1, _⟩ => show win0_3.index t 1 * 128 + 1 * (y 1).val = (i 1).val; rw [hi.2.2.2.2.2.2.2.1, h1]; omega

/-- The second weight's block at every point is the whole 128x128 array. -/
theorem blk0_4 (c : Dev nD) (t : Fin cfg0.N) (y : S128x128.Idx) (i : S128x128.Idx)
    (h0 : (i 0).val = (y 0).val) (h1 : (i 1).val = (y 1).val) :
    (iblk0 V c 4 t : Vec Ideal S128x128 .f32) y = (V c main_v25 : S128x128.Idx → EReal) i := by
  have hi := idx0 t
  unfold iblk0
  rw [View.read_apply]
  show V c main_v25 _ = V c main_v25 _
  congr 1
  funext a
  apply Fin.ext
  match a with
  | ⟨0, _⟩ => show win0_4.index t 0 * 128 + 1 * (y 0).val = (i 0).val; rw [hi.2.2.2.2.2.2.2.2.1, h0]; omega
  | ⟨1, _⟩ => show win0_4.index t 1 * 128 + 1 * (y 1).val = (i 1).val; rw [hi.2.2.2.2.2.2.2.2.2.1, h1]; omega

/-- What point `t` writes back is block `t` of the combine of the five arrays the call is entered with: the output's
    element (`p`, `q`) of the block sits at row `5000 t + p`, lane `q` of the array; the row-blocked inputs are read at that
    row, the weights and the bias row at that lane. -/
theorem flushed0 (c : Dev nD) (t : Fin cfg0.N) :
    (dat0 (F := Ideal) V c).flushed 5 t = ((cfg0.win 5).blk t).view.read (Elt Ideal)
      (combine true (V c main_v14) (V c main_v15) (V c main_v20) (V c main_v27) (V c main_v25)) := by
  show (cfg0.win 5).cut (grid0.coords t) ((dat0 V c).after 5 t) = _
  rw [after0_5]
  unfold out0_5
  rw [View.canon_unit_zero zeroOff0]
  simp only [View.ld_unit_zero (S := S5000x128) zeroOff0, View.ld_unit_zero (S := S128x128) zeroOff0, View.ld_unit_zero (S := S1x128) zeroOff0]
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 4 t) (iblk0 V c 3 t) (ix2 p q)
    = combine true (V c main_v14) (V c main_v15) (V c main_v20) (V c main_v27) (V c main_v25)
        (((cfg0.win 5).blk t).view.emb (ix2 p q))
  refine (pay0_apply _ _ _ _ _ p q).trans ?_
  have hi := idx0 t
  have e0 : ((((cfg0.win 5).blk t).view.emb (ix2 p q)) 0).val = t.val * 5000 + p.val := by
    show win0_5.index t 0 * 5000 + 1 * p.val = _
    rw [hi.2.2.2.2.2.2.2.2.2.2.1]; omega
  have e1 : ((((cfg0.win 5).blk t).view.emb (ix2 p q)) 1).val = q.val := by
    show win0_5.index t 1 * 128 + 1 * q.val = _
    rw [hi.2.2.2.2.2.2.2.2.2.2.2]; omega
  exact combine_of_reads0 _ _ _ _ _ _ _ _ _ _ p q _
    (fun k => blk0_0 V c t _ _ e0 rfl) (fun k => blk0_1 V c t _ _ e0 rfl)
    (fun k => blk0_2 V c t _ _ rfl e1) (fun k => blk0_4 V c t _ _ rfl e1)
    (blk0_3 V c t _ _ rfl e1)

/-- An index of the output array is in point `t`'s block iff, on each axis, it lies in the block's range. -/
theorem mem_blk0 (t : Fin cfg0.N) (i : S25000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- The five row blocks tile the output array: row `r` lies in the block of point `r / 5000`, and every point writes back. -/
theorem cover0 (i : S25000x128.Idx) :
    ∃ t : Fin cfg0.N, (cfg0.win 5).flush t = true ∧ i ∈ ((cfg0.win 5).blk t).view.set := by
  have hN : cfg0.N = 5 := N_0
  have h0 : (i 0).val < 25000 := (i 0).isLt
  have h1 : (i 1).val < 128 := (i 1).isLt
  refine ⟨⟨(i 0).val / 5000, by omega⟩, flush0_5 _, ?_⟩
  rw [mem_blk0]
  have hi := idx0 ⟨(i 0).val / 5000, by omega⟩
  intro a
  match a with
  | ⟨0, _⟩ =>
    show win0_5.index _ 0 * 5000 ≤ (i 0).val ∧ (i 0).val < win0_5.index _ 0 * 5000 + 5000
    rw [hi.2.2.2.2.2.2.2.2.2.2.1]
    show (i 0).val / 5000 * 5000 ≤ (i 0).val ∧ (i 0).val < (i 0).val / 5000 * 5000 + 5000
    omega
  | ⟨1, _⟩ =>
    show win0_5.index _ 1 * 128 ≤ (i 1).val ∧ (i 1).val < win0_5.index _ 1 * 128 + 128
    rw [hi.2.2.2.2.2.2.2.2.2.2.2]
    omega

end Blocks0

/-- After pallas_call 0 its output array holds the combine of the five arrays the call is entered with. -/
theorem final0 (V : (c : Dev nD) → (b : Ref sig .tc) → Buf (Elt Ideal) ((c : Thread nD τ).loc b)) (c : Dev nD) :
    (dat0 (F := Ideal) V c).arrAt 5 cfg0.N
      = combine true (V c main_v14) (V c main_v15) (V c main_v20) (V c main_v27) (V c main_v25) :=
  (dat0 (F := Ideal) V c).arrAt_eq_of_cover 5 _ (fun t _ => flushed0 V c t) cover0

end Cert.GConv

end
-- ==== Proof.KRegion1.lean ====
/-
  Region 1: what the pallas_call leaves in its output array, as one function of the arrays it is entered with.

  The call runs over five row blocks of [5000, 128]. At point `t` the body holds rows `5000 t … 5000 t + 4999` of the paired
  neighbour sums and of the paired features, and the whole of the two 128x128 weights and of the [1, 128] bias row. Its
  value at row `p`, lane `q` of the block is  ∑ k<128, A2(5000 t + p, k) · Brel(k, q) + ∑ k<128, X2(5000 t + p, k) · Broot(k, q)
  + b2(0, q), then the positive part: on the extended reals the changes of float format are the identity and each product into the zero
  accumulator is the plain sum over the shared axis. Every point writes its block back and the five blocks tile the
  [25000, 128] output, so the array ends holding the combine of the five arrays at every index.
-/
import proofs.«118596_j89790586290566_2_alg».proof.Proof.Gen.KernelIdeal.Frame
import proofs.«118596_j89790586290566_2_alg».proof.Proof.Spec
import proofs.«118596_j89790586290566_2_alg».proof.Proof.LibMatmulSum
import Idealize.ShloMosaic.Lib.Pipeline.Value
import Idealize.ShloMosaic.Lib.ValueLayout

noncomputable section

namespace Cert.GConv

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a whole-block load or store, spelt as the constant function. -/
theorem zeroOff1 : (![0, 0] : Fin 2 → Nat) = fun _ => 0 := funext fun a => by fin_cases a <;> rfl

/-- One matrix product of the body at an index: the sum over the 128 lanes of the products. -/
theorem mm1_apply (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) :=
  MatmulSum.matmul_zero_apply dot_S5000x128_S128x128_S5000x128_1_0_0_1_n_n rfl rfl rfl rfl rfl rfl none l r (ix2 p q)

/-- The body's value at row `p`, lane `q` of its block: both products summed over the 128 lanes, the bias row's
    entry at lane `q` added, and the positive part taken. The changes of float format are the identity on the
    extended reals, the accumulator is the zero splat, and the bias row is read at its one row. -/
theorem pay1_apply (x0 x1 : Vec Ideal S5000x128 .f32) (x2 x4 : Vec Ideal S128x128 .f32) (x3 : Vec Ideal S1x128 .f32)
    (p : Fin 5000) (q : Fin 128) :
    k1_pay1 x0 x1 x2 x4 x3 (ix2 p q)
      = reluIf true (((∑ k : Fin 128, x0 (ix2 p k) * x2 (ix2 k q)) + ∑ k : Fin 128, x1 (ix2 p k) * x4 (ix2 k q))
          + x3 (ix2 (0 : Fin 1) q)) := by
  unfold k1_pay1
  rw [shapeCast_self, shapeCast_self, shapeCast_self, shapeCast_self, shapeCast_self]
  refine (maximumf_apply _ _ _).trans ?_
  rw [broadcast_apply, addf_apply, addf_apply]
  have e1 := mm1_apply (truncf .bf16 x0 bitsLt_bf16_f32) (truncf .bf16 x2 bitsLt_bf16_f32) p q
  have e2 := mm1_apply (truncf .bf16 x1 bitsLt_bf16_f32) (truncf .bf16 x4 bitsLt_bf16_f32) p q
  have e3 := broadcastTo_1b_ab_apply x3 broadcasts_S1x128_S5000x128 p q
  unfold reluIf
  rw [if_pos rfl]
  exact congrArg₂ max (congrArg₂ (· + ·) (congrArg₂ (· + ·) e1 e2) e3) Ideal.ofBits_zero_f32

/-- The printed index maps, decided once over the five grid points: the two row-blocked inputs and the output sit at
    row block `t`, the two weights and the bias row at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The combine at array index `i` from block-local reads: when the five blocks a point holds agree with the five arrays at
    the rows and lanes the index `i` names, the body's sum-of-products at (`p`, `q`) is the combine at `i`. -/
theorem combine_of_reads1 (A X : S25000x128.Idx → EReal) (B Br : S128x128.Idx → EReal) (b : S1x128.Idx → EReal)
    (a x : Vec Ideal S5000x128 .f32) (w wr : Vec Ideal S128x128 .f32) (bb : Vec Ideal S1x128 .f32)
    (p : Fin 5000) (q : Fin 128) (i : S25000x128.Idx)
    (ha : ∀ k : Fin 128, a (ix2 p k) = A (ix2 (i 0) k)) (hx : ∀ k : Fin 128, x (ix2 p k) = X (ix2 (i 0) k))
    (hw : ∀ k : Fin 128, w (ix2 k q) = B (ix2 k (i 1))) (hwr : ∀ k : Fin 128, wr (ix2 k q) = Br (ix2 k (i 1)))
    (hb : bb (ix2 (0 : Fin 1) q) = b (ix2 (0 : Fin 1) (i 1))) :
    reluIf true (((∑ k : Fin 128, a (ix2 p k) * w (ix2 k q)) + ∑ k : Fin 128, x (ix2 p k) * wr (ix2 k q))
        + bb (ix2 (0 : Fin 1) q)) = combine true A X B b Br i := by
  unfold combine
  refine congrArg (reluIf true) (congrArg₂ (· + ·) (congrArg₂ (· + ·) ?_ ?_) hb)
  · exact Finset.sum_congr rfl fun k _ => by rw [ha k, hw k]
  · exact Finset.sum_congr rfl fun k _ => by rw [hx k, hwr k]

section Blocks1

variable (V : (c : Dev nD) → (b : Ref sig .tc) → Buf (Elt Ideal) ((c : Thread nD τ).loc b))

/-- The block of the paired neighbour sums at point `t` is rows `5000 t … 5000 t + 4999` of the array. -/
theorem blk1_0 (c : Dev nD) (t : Fin cfg1.N) (y : S5000x128.Idx) (i : S25000x128.Idx)
    (h0 : (i 0).val = t.val * 5000 + (y 0).val) (h1 : (i 1).val = (y 1).val) :
    (iblk1 V c 0 t : Vec Ideal S5000x128 .f32) y = (V c main_v40 : S25000x128.Idx → EReal) i := by
  have hi := idx1 t
  unfold iblk1
  rw [View.read_apply]
  show V c main_v40 _ = V c main_v40 _
  congr 1
  funext a
  apply Fin.ext
  match a with
  | ⟨0, _⟩ => show win1_0.index t 0 * 5000 + 1 * (y 0).val = (i 0).val; rw [hi.1, h0]; omega
  | ⟨1, _⟩ => show win1_0.index t 1 * 128 + 1 * (y 1).val = (i 1).val; rw [hi.2.1, h1]; omega

/-- The block of the paired features at point `t` is the same rows of its array. -/
theorem blk1_1 (c : Dev nD) (t : Fin cfg1.N) (y : S5000x128.Idx) (i : S25000x128.Idx)
    (h0 : (i 0).val = t.val * 5000 + (y 0).val) (h1 : (i 1).val = (y 1).val) :
    (iblk1 V c 1 t : Vec Ideal S5000x128 .f32) y = (V c main_v41 : S25000x128.Idx → EReal) i := by
  have hi := idx1 t
  unfold iblk1
  rw [View.read_apply]
  show V c main_v41 _ = V c main_v41 _
  congr 1
  funext a
  apply Fin.ext
  match a with
  | ⟨0, _⟩ => show win1_1.index t 0 * 5000 + 1 * (y 0).val = (i 0).val; rw [hi.2.2.1, h0]; omega
  | ⟨1, _⟩ => show win1_1.index t 1 * 128 + 1 * (y 1).val = (i 1).val; rw [hi.2.2.2.1, h1]; omega

/-- The first weight's block at every point is the whole 128x128 array. -/
theorem blk1_2 (c : Dev nD) (t : Fin cfg1.N) (y : S128x128.Idx) (i : S128x128.Idx)
    (h0 : (i 0).val = (y 0).val) (h1 : (i 1).val = (y 1).val) :
    (iblk1 V c 2 t : Vec Ideal S128x128 .f32) y = (V c main_v46 : S128x128.Idx → EReal) i := by
  have hi := idx1 t
  unfold iblk1
  rw [View.read_apply]
  show V c main_v46 _ = V c main_v46 _
  congr 1
  funext a
  apply Fin.ext
  match a with
  | ⟨0, _⟩ => show win1_2.index t 0 * 128 + 1 * (y 0).val = (i 0).val; rw [hi.2.2.2.2.1, h0]; omega
  | ⟨1, _⟩ => show win1_2.index t 1 * 128 + 1 * (y 1).val = (i 1).val; rw [hi.2.2.2.2.2.1, h1]; omega

/-- The bias row's block at every point is the whole [1,128] array. -/
theorem blk1_3 (c : Dev nD) (t : Fin cfg1.N) (y : S1x128.Idx) (i : S1x128.Idx)
    (h0 : (i 0).val = (y 0).val) (h1 : (i 1).val = (y 1).val) :
    (iblk1 V c 3 t : Vec Ideal S1x128 .f32) y = (V c main_v53 : S1x128.Idx → EReal) i := by
  have hi := idx1 t
  unfold iblk1
  rw [View.read_apply]
  show V c main_v53 _ = V c main_v53 _
  congr 1
  funext a
  apply Fin.ext
  match a with
  | ⟨0, _⟩ => show win1_3.index t 0 * 1 + 1 * (y 0).val = (i 0).val; rw [hi.2.2.2.2.2.2.1, h0]; omega
  | ⟨1, _⟩ => show win1_3.index t 1 * 128 + 1 * (y 1).val = (i 1).val; rw [hi.2.2.2.2.2.2.2.1, h1]; omega

/-- The second weight's block at every point is the whole 128x128 array. -/
theorem blk1_4 (c : Dev nD) (t : Fin cfg1.N) (y : S128x128.Idx) (i : S128x128.Idx)
    (h0 : (i 0).val = (y 0).val) (h1 : (i 1).val = (y 1).val) :
    (iblk1 V c 4 t : Vec Ideal S128x128 .f32) y = (V c main_v51 : S128x128.Idx → EReal) i := by
  have hi := idx1 t
  unfold iblk1
  rw [View.read_apply]
  show V c main_v51 _ = V c main_v51 _
  congr 1
  funext a
  apply Fin.ext
  match a with
  | ⟨0, _⟩ => show win1_4.index t 0 * 128 + 1 * (y 0).val = (i 0).val; rw [hi.2.2.2.2.2.2.2.2.1, h0]; omega
  | ⟨1, _⟩ => show win1_4.index t 1 * 128 + 1 * (y 1).val = (i 1).val; rw [hi.2.2.2.2.2.2.2.2.2.1, h1]; omega

/-- What point `t` writes back is block `t` of the combine of the five arrays the call is entered with: the output's
    element (`p`, `q`) of the block sits at row `5000 t + p`, lane `q` of the array; the row-blocked inputs are read at that
    row, the weights and the bias row at that lane. -/
theorem flushed1 (c : Dev nD) (t : Fin cfg1.N) :
    (dat1 (F := Ideal) V c).flushed 5 t = ((cfg1.win 5).blk t).view.read (Elt Ideal)
      (combine true (V c main_v40) (V c main_v41) (V c main_v46) (V c main_v53) (V c main_v51)) := by
  show (cfg1.win 5).cut (grid1.coords t) ((dat1 V c).after 5 t) = _
  rw [after1_5]
  unfold out1_5
  rw [View.canon_unit_zero zeroOff1]
  simp only [View.ld_unit_zero (S := S5000x128) zeroOff1, View.ld_unit_zero (S := S128x128) zeroOff1, View.ld_unit_zero (S := S1x128) zeroOff1]
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 4 t) (iblk1 V c 3 t) (ix2 p q)
    = combine true (V c main_v40) (V c main_v41) (V c main_v46) (V c main_v53) (V c main_v51)
        (((cfg1.win 5).blk t).view.emb (ix2 p q))
  refine (pay1_apply _ _ _ _ _ p q).trans ?_
  have hi := idx1 t
  have e0 : ((((cfg1.win 5).blk t).view.emb (ix2 p q)) 0).val = t.val * 5000 + p.val := by
    show win1_5.index t 0 * 5000 + 1 * p.val = _
    rw [hi.2.2.2.2.2.2.2.2.2.2.1]; omega
  have e1 : ((((cfg1.win 5).blk t).view.emb (ix2 p q)) 1).val = q.val := by
    show win1_5.index t 1 * 128 + 1 * q.val = _
    rw [hi.2.2.2.2.2.2.2.2.2.2.2]; omega
  exact combine_of_reads1 _ _ _ _ _ _ _ _ _ _ p q _
    (fun k => blk1_0 V c t _ _ e0 rfl) (fun k => blk1_1 V c t _ _ e0 rfl)
    (fun k => blk1_2 V c t _ _ rfl e1) (fun k => blk1_4 V c t _ _ rfl e1)
    (blk1_3 V c t _ _ rfl e1)

/-- An index of the output array is in point `t`'s block iff, on each axis, it lies in the block's range. -/
theorem mem_blk1 (t : Fin cfg1.N) (i : S25000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v54).slice (win1_5.rect t)).set ↔ _
  rw [View.set_slice_whole, Rect.mem_set_unit]
  exact Iff.rfl

/-- The five row blocks tile the output array: row `r` lies in the block of point `r / 5000`, and every point writes back. -/
theorem cover1 (i : S25000x128.Idx) :
    ∃ t : Fin cfg1.N, (cfg1.win 5).flush t = true ∧ i ∈ ((cfg1.win 5).blk t).view.set := by
  have hN : cfg1.N = 5 := N_1
  have h0 : (i 0).val < 25000 := (i 0).isLt
  have h1 : (i 1).val < 128 := (i 1).isLt
  refine ⟨⟨(i 0).val / 5000, by omega⟩, flush1_5 _, ?_⟩
  rw [mem_blk1]
  have hi := idx1 ⟨(i 0).val / 5000, by omega⟩
  intro a
  match a with
  | ⟨0, _⟩ =>
    show win1_5.index _ 0 * 5000 ≤ (i 0).val ∧ (i 0).val < win1_5.index _ 0 * 5000 + 5000
    rw [hi.2.2.2.2.2.2.2.2.2.2.1]
    show (i 0).val / 5000 * 5000 ≤ (i 0).val ∧ (i 0).val < (i 0).val / 5000 * 5000 + 5000
    omega
  | ⟨1, _⟩ =>
    show win1_5.index _ 1 * 128 ≤ (i 1).val ∧ (i 1).val < win1_5.index _ 1 * 128 + 128
    rw [hi.2.2.2.2.2.2.2.2.2.2.2]
    omega

end Blocks1

/-- After pallas_call 1 its output array holds the combine of the five arrays the call is entered with. -/
theorem final1 (V : (c : Dev nD) → (b : Ref sig .tc) → Buf (Elt Ideal) ((c : Thread nD τ).loc b)) (c : Dev nD) :
    (dat1 (F := Ideal) V c).arrAt 5 cfg1.N
      = combine true (V c main_v40) (V c main_v41) (V c main_v46) (V c main_v53) (V c main_v51) :=
  (dat1 (F := Ideal) V c).arrAt_eq_of_cover 5 _ (fun t _ => flushed1 V c t) cover1

end Cert.GConv

end
-- ==== Proof.KRegion2.lean ====
/-
  Region 2: what the pallas_call leaves in its output array, as one function of the arrays it is entered with.

  The call runs over five row blocks of [5000, 128]. At point `t` the body holds rows `5000 t … 5000 t + 4999` of the paired
  neighbour sums and of the paired features, and the whole of the two 128x128 weights and of the [1, 128] bias row. Its
  value at row `p`, lane `q` of the block is  ∑ k<128, A2(5000 t + p, k) · Brel(k, q) + ∑ k<128, X2(5000 t + p, k) · Broot(k, q)
  + b2(0, q): on the extended reals the changes of float format are the identity and each product into the zero
  accumulator is the plain sum over the shared axis. Every point writes its block back and the five blocks tile the
  [25000, 128] output, so the array ends holding the combine of the five arrays at every index.
-/
import proofs.«118596_j89790586290566_2_alg».proof.Proof.Gen.KernelIdeal.Frame
import proofs.«118596_j89790586290566_2_alg».proof.Proof.Spec
import proofs.«118596_j89790586290566_2_alg».proof.Proof.LibMatmulSum
import Idealize.ShloMosaic.Lib.Pipeline.Value
import Idealize.ShloMosaic.Lib.ValueLayout

noncomputable section

namespace Cert.GConv

open Idealize.ShloMosaic Idealize.ShloMosaic.TcCoe Idealize.ShloMosaic.ValueIdx Idealize.SL.Sem
open Idealize.ShloMosaic.Pipeline (Dat)
open Cert.KernelIdeal Cert.KernelIdeal.Gen

/-- The zero offsets of a whole-block load or store, spelt as the constant function. -/
theorem zeroOff2 : (![0, 0] : Fin 2 → Nat) = fun _ => 0 := funext fun a => by fin_cases a <;> rfl

/-- One matrix product of the body at an index: the sum over the 128 lanes of the products. -/
theorem mm2_apply (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) :=
  MatmulSum.matmul_zero_apply dot_S5000x128_S128x128_S5000x128_1_0_0_1_n_n rfl rfl rfl rfl rfl rfl none l r (ix2 p q)

/-- The body's value at row `p`, lane `q` of its block: both products summed over the 128 lanes and the bias row's
    entry at lane `q` added (this layer has no positive part). The changes of float format are the identity on the
    extended reals, the accumulator is the zero splat, and the bias row is read at its one row. -/
theorem pay2_apply (x0 x1 : Vec Ideal S5000x128 .f32) (x2 x4 : Vec Ideal S128x128 .f32) (x3 : Vec Ideal S1x128 .f32)
    (p : Fin 5000) (q : Fin 128) :
    k2_pay1 x0 x1 x2 x4 x3 (ix2 p q)
      = reluIf false (((∑ k : Fin 128, x0 (ix2 p k) * x2 (ix2 k q)) + ∑ k : Fin 128, x1 (ix2 p k) * x4 (ix2 k q))
          + x3 (ix2 (0 : Fin 1) q)) := by
  unfold k2_pay1
  rw [shapeCast_self, shapeCast_self, shapeCast_self, shapeCast_self, shapeCast_self]
  rw [addf_apply, addf_apply]
  have e1 := mm2_apply (truncf .bf16 x0 bitsLt_bf16_f32) (truncf .bf16 x2 bitsLt_bf16_f32) p q
  have e2 := mm2_apply (truncf .bf16 x1 bitsLt_bf16_f32) (truncf .bf16 x4 bitsLt_bf16_f32) p q
  have e3 := broadcastTo_1b_ab_apply x3 broadcasts_S1x128_S5000x128 p q
  unfold reluIf
  rw [if_neg Bool.false_ne_true]
  exact congrArg₂ (· + ·) (congrArg₂ (· + ·) e1 e2) e3

/-- The printed index maps, decided once over the five grid points: the two row-blocked inputs and the output sit at
    row block `t`, the two weights and the bias row at their one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The combine at array index `i` from block-local reads: when the five blocks a point holds agree with the five arrays at
    the rows and lanes the index `i` names, the body's sum-of-products at (`p`, `q`) is the combine at `i`. -/
theorem combine_of_reads2 (A X : S25000x128.Idx → EReal) (B Br : S128x128.Idx → EReal) (b : S1x128.Idx → EReal)
    (a x : Vec Ideal S5000x128 .f32) (w wr : Vec Ideal S128x128 .f32) (bb : Vec Ideal S1x128 .f32)
    (p : Fin 5000) (q : Fin 128) (i : S25000x128.Idx)
    (ha : ∀ k : Fin 128, a (ix2 p k) = A (ix2 (i 0) k)) (hx : ∀ k : Fin 128, x (ix2 p k) = X (ix2 (i 0) k))
    (hw : ∀ k : Fin 128, w (ix2 k q) = B (ix2 k (i 1))) (hwr : ∀ k : Fin 128, wr (ix2 k q) = Br (ix2 k (i 1)))
    (hb : bb (ix2 (0 : Fin 1) q) = b (ix2 (0 : Fin 1) (i 1))) :
    reluIf false (((∑ k : Fin 128, a (ix2 p k) * w (ix2 k q)) + ∑ k : Fin 128, x (ix2 p k) * wr (ix2 k q))
        + bb (ix2 (0 : Fin 1) q)) = combine false A X B b Br i := by
  unfold combine
  refine congrArg (reluIf false) (congrArg₂ (· + ·) (congrArg₂ (· + ·) ?_ ?_) hb)
  · exact Finset.sum_congr rfl fun k _ => by rw [ha k, hw k]
  · exact Finset.sum_congr rfl fun k _ => by rw [hx k, hwr k]

section Blocks2

variable (V : (c : Dev nD) → (b : Ref sig .tc) → Buf (Elt Ideal) ((c : Thread nD τ).loc b))

/-- The block of the paired neighbour sums at point `t` is rows `5000 t … 5000 t + 4999` of the array. -/
theorem blk2_0 (c : Dev nD) (t : Fin cfg2.N) (y : S5000x128.Idx) (i : S25000x128.Idx)
    (h0 : (i 0).val = t.val * 5000 + (y 0).val) (h1 : (i 1).val = (y 1).val) :
    (iblk2 V c 0 t : Vec Ideal S5000x128 .f32) y = (V c main_v66 : S25000x128.Idx → EReal) i := by
  have hi := idx2 t
  unfold iblk2
  rw [View.read_apply]
  show V c main_v66 _ = V c main_v66 _
  congr 1
  funext a
  apply Fin.ext
  match a with
  | ⟨0, _⟩ => show win2_0.index t 0 * 5000 + 1 * (y 0).val = (i 0).val; rw [hi.1, h0]; omega
  | ⟨1, _⟩ => show win2_0.index t 1 * 128 + 1 * (y 1).val = (i 1).val; rw [hi.2.1, h1]; omega

/-- The block of the paired features at point `t` is the same rows of its array. -/
theorem blk2_1 (c : Dev nD) (t : Fin cfg2.N) (y : S5000x128.Idx) (i : S25000x128.Idx)
    (h0 : (i 0).val = t.val * 5000 + (y 0).val) (h1 : (i 1).val = (y 1).val) :
    (iblk2 V c 1 t : Vec Ideal S5000x128 .f32) y = (V c main_v67 : S25000x128.Idx → EReal) i := by
  have hi := idx2 t
  unfold iblk2
  rw [View.read_apply]
  show V c main_v67 _ = V c main_v67 _
  congr 1
  funext a
  apply Fin.ext
  match a with
  | ⟨0, _⟩ => show win2_1.index t 0 * 5000 + 1 * (y 0).val = (i 0).val; rw [hi.2.2.1, h0]; omega
  | ⟨1, _⟩ => show win2_1.index t 1 * 128 + 1 * (y 1).val = (i 1).val; rw [hi.2.2.2.1, h1]; omega

/-- The first weight's block at every point is the whole 128x128 array. -/
theorem blk2_2 (c : Dev nD) (t : Fin cfg2.N) (y : S128x128.Idx) (i : S128x128.Idx)
    (h0 : (i 0).val = (y 0).val) (h1 : (i 1).val = (y 1).val) :
    (iblk2 V c 2 t : Vec Ideal S128x128 .f32) y = (V c main_v72 : S128x128.Idx → EReal) i := by
  have hi := idx2 t
  unfold iblk2
  rw [View.read_apply]
  show V c main_v72 _ = V c main_v72 _
  congr 1
  funext a
  apply Fin.ext
  match a with
  | ⟨0, _⟩ => show win2_2.index t 0 * 128 + 1 * (y 0).val = (i 0).val; rw [hi.2.2.2.2.1, h0]; omega
  | ⟨1, _⟩ => show win2_2.index t 1 * 128 + 1 * (y 1).val = (i 1).val; rw [hi.2.2.2.2.2.1, h1]; omega

/-- The bias row's block at every point is the whole [1,128] array. -/
theorem blk2_3 (c : Dev nD) (t : Fin cfg2.N) (y : S1x128.Idx) (i : S1x128.Idx)
    (h0 : (i 0).val = (y 0).val) (h1 : (i 1).val = (y 1).val) :
    (iblk2 V c 3 t : Vec Ideal S1x128 .f32) y = (V c main_v79 : S1x128.Idx → EReal) i := by
  have hi := idx2 t
  unfold iblk2
  rw [View.read_apply]
  show V c main_v79 _ = V c main_v79 _
  congr 1
  funext a
  apply Fin.ext
  match a with
  | ⟨0, _⟩ => show win2_3.index t 0 * 1 + 1 * (y 0).val = (i 0).val; rw [hi.2.2.2.2.2.2.1, h0]; omega
  | ⟨1, _⟩ => show win2_3.index t 1 * 128 + 1 * (y 1).val = (i 1).val; rw [hi.2.2.2.2.2.2.2.1, h1]; omega

/-- The second weight's block at every point is the whole 128x128 array. -/
theorem blk2_4 (c : Dev nD) (t : Fin cfg2.N) (y : S128x128.Idx) (i : S128x128.Idx)
    (h0 : (i 0).val = (y 0).val) (h1 : (i 1).val = (y 1).val) :
    (iblk2 V c 4 t : Vec Ideal S128x128 .f32) y = (V c main_v77 : S128x128.Idx → EReal) i := by
  have hi := idx2 t
  unfold iblk2
  rw [View.read_apply]
  show V c main_v77 _ = V c main_v77 _
  congr 1
  funext a
  apply Fin.ext
  match a with
  | ⟨0, _⟩ => show win2_4.index t 0 * 128 + 1 * (y 0).val = (i 0).val; rw [hi.2.2.2.2.2.2.2.2.1, h0]; omega
  | ⟨1, _⟩ => show win2_4.index t 1 * 128 + 1 * (y 1).val = (i 1).val; rw [hi.2.2.2.2.2.2.2.2.2.1, h1]; omega

/-- What point `t` writes back is block `t` of the combine of the five arrays the call is entered with: the output's
    element (`p`, `q`) of the block sits at row `5000 t + p`, lane `q` of the array; the row-blocked inputs are read at that
    row, the weights and the bias row at that lane. -/
theorem flushed2 (c : Dev nD) (t : Fin cfg2.N) :
    (dat2 (F := Ideal) V c).flushed 5 t = ((cfg2.win 5).blk t).view.read (Elt Ideal)
      (combine false (V c main_v66) (V c main_v67) (V c main_v72) (V c main_v79) (V c main_v77)) := by
  show (cfg2.win 5).cut (grid2.coords t) ((dat2 V c).after 5 t) = _
  rw [after2_5]
  unfold out2_5
  rw [View.canon_unit_zero zeroOff2]
  simp only [View.ld_unit_zero (S := S5000x128) zeroOff2, View.ld_unit_zero (S := S128x128) zeroOff2, View.ld_unit_zero (S := S1x128) zeroOff2]
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 4 t) (iblk2 V c 3 t) (ix2 p q)
    = combine false (V c main_v66) (V c main_v67) (V c main_v72) (V c main_v79) (V c main_v77)
        (((cfg2.win 5).blk t).view.emb (ix2 p q))
  refine (pay2_apply _ _ _ _ _ p q).trans ?_
  have hi := idx2 t
  have e0 : ((((cfg2.win 5).blk t).view.emb (ix2 p q)) 0).val = t.val * 5000 + p.val := by
    show win2_5.index t 0 * 5000 + 1 * p.val = _
    rw [hi.2.2.2.2.2.2.2.2.2.2.1]; omega
  have e1 : ((((cfg2.win 5).blk t).view.emb (ix2 p q)) 1).val = q.val := by
    show win2_5.index t 1 * 128 + 1 * q.val = _
    rw [hi.2.2.2.2.2.2.2.2.2.2.2]; omega
  exact combine_of_reads2 _ _ _ _ _ _ _ _ _ _ p q _
    (fun k => blk2_0 V c t _ _ e0 rfl) (fun k => blk2_1 V c t _ _ e0 rfl)
    (fun k => blk2_2 V c t _ _ rfl e1) (fun k => blk2_4 V c t _ _ rfl e1)
    (blk2_3 V c t _ _ rfl e1)

/-- An index of the output array is in point `t`'s block iff, on each axis, it lies in the block's range. -/
theorem mem_blk2 (t : Fin cfg2.N) (i : S25000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v80).slice (win2_5.rect t)).set ↔ _
  rw [View.set_slice_whole, Rect.mem_set_unit]
  exact Iff.rfl

/-- The five row blocks tile the output array: row `r` lies in the block of point `r / 5000`, and every point writes back. -/
theorem cover2 (i : S25000x128.Idx) :
    ∃ t : Fin cfg2.N, (cfg2.win 5).flush t = true ∧ i ∈ ((cfg2.win 5).blk t).view.set := by
  have hN : cfg2.N = 5 := N_2
  have h0 : (i 0).val < 25000 := (i 0).isLt
  have h1 : (i 1).val < 128 := (i 1).isLt
  refine ⟨⟨(i 0).val / 5000, by omega⟩, flush2_5 _, ?_⟩
  rw [mem_blk2]
  have hi := idx2 ⟨(i 0).val / 5000, by omega⟩
  intro a
  match a with
  | ⟨0, _⟩ =>
    show win2_5.index _ 0 * 5000 ≤ (i 0).val ∧ (i 0).val < win2_5.index _ 0 * 5000 + 5000
    rw [hi.2.2.2.2.2.2.2.2.2.2.1]
    show (i 0).val / 5000 * 5000 ≤ (i 0).val ∧ (i 0).val < (i 0).val / 5000 * 5000 + 5000
    omega
  | ⟨1, _⟩ =>
    show win2_5.index _ 1 * 128 ≤ (i 1).val ∧ (i 1).val < win2_5.index _ 1 * 128 + 128
    rw [hi.2.2.2.2.2.2.2.2.2.2.2]
    omega

end Blocks2

/-- After pallas_call 2 its output array holds the combine of the five arrays the call is entered with. -/
theorem final2 (V : (c : Dev nD) → (b : Ref sig .tc) → Buf (Elt Ideal) ((c : Thread nD τ).loc b)) (c : Dev nD) :
    (dat2 (F := Ideal) V c).arrAt 5 cfg2.N
      = combine false (V c main_v66) (V c main_v67) (V c main_v72) (V c main_v79) (V c main_v77) :=
  (dat2 (F := Ideal) V c).arrAt_eq_of_cover 5 _ (fun t _ => flushed2 V c t) cover2

end Cert.GConv

end
-- ==== Proof.KValue.lean ====
/-
  The kernel program's result: following the buffers through the three pallas_calls and the host operations between
  them, the result array ends at the three layers of the stack applied to the launch contents of the arguments.

  The contents at each boundary are a fold from the launch memory: a stretch of host operations rewrites the buffers it
  writes and keeps the rest; a pallas_call rewrites its output array and keeps the rest. So each call is entered with
  the paired neighbour sums and features of the previous layer's output, the block-diagonal weights and doubled bias of
  its own arguments — the edge list's two rows, computed before the first call, and the later layers' weights, never
  written, are carried unchanged — and leaves the combine of those five arrays.
-/
import proofs.«118596_j89790586290566_2_alg».proof.Proof.Gen.KernelIdeal.Frame
import proofs.«118596_j89790586290566_2_alg».proof.Proof.KHost
import proofs.«118596_j89790586290566_2_alg».proof.Proof.KLayer
import proofs.«118596_j89790586290566_2_alg».proof.Proof.KRegion0
import proofs.«118596_j89790586290566_2_alg».proof.Proof.KRegion1
import proofs.«118596_j89790586290566_2_alg».proof.Proof.KRegion2

noncomputable section

namespace Cert.GConv

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-! ## The first pallas_call -/

/-- The edge list's source row, as the first stretch leaves it. -/
theorem src_W1 (c : Dev nD) : W1 (F := Ideal) m ρ c (Proc.devRef .tc main_v1) = srcOf (F := Ideal) (m ((c : Thread nD τ).loc main_arg1)) := host0_v1 (F := Ideal) (W0 m ρ c)
/-- The edge list's destination row, as the first stretch leaves it. -/
theorem dst_W1 (c : Dev nD) : W1 (F := Ideal) m ρ c (Proc.devRef .tc main_v3) = dstOf (F := Ideal) (m ((c : Thread nD τ).loc main_arg1)) := host0_v3 (F := Ideal) (W0 m ρ c)

/-- The first call leaves the combine of the paired first-layer inputs. -/
theorem out0 (c : Dev nD) : (dat0 (F := Ideal) (V1 m ρ) c).arrAt 5 cfg0.N = combine true (packK (F := Ideal) (aggK (F := Ideal) (m ((c : Thread nD τ).loc main_arg0)) (srcOf (F := Ideal) (m ((c : Thread nD τ).loc main_arg1))) (dstOf (F := Ideal) (m ((c : Thread nD τ).loc main_arg1))))) (packK (F := Ideal) (m ((c : Thread nD τ).loc main_arg0))) (bdK (F := Ideal) (m ((c : Thread nD τ).loc main_arg2))) (rowK (F := Ideal) (m ((c : Thread nD τ).loc main_arg3))) (bdK (F := Ideal) (m ((c : Thread nD τ).loc main_arg4))) := by
  rw [final0 (V1 m ρ) c]
  rw [show V1 (F := Ideal) m ρ c main_v14 = _ from host0_v14 (F := Ideal) (W0 m ρ c),
    show V1 (F := Ideal) m ρ c main_v15 = _ from host0_v15 (F := Ideal) (W0 m ρ c),
    show V1 (F := Ideal) m ρ c main_v20 = _ from host0_v20 (F := Ideal) (W0 m ρ c),
    show V1 (F := Ideal) m ρ c main_v27 = _ from host0_v27 (F := Ideal) (W0 m ρ c),
    show V1 (F := Ideal) m ρ c main_v25 = _ from host0_v25 (F := Ideal) (W0 m ρ c)]

/-- The first call's output buffer at its exit. -/
theorem W2_v28 (c : Dev nD) : W2 (F := Ideal) m ρ c (Proc.devRef .tc main_v28) = combine true (packK (F := Ideal) (aggK (F := Ideal) (m ((c : Thread nD τ).loc main_arg0)) (srcOf (F := Ideal) (m ((c : Thread nD τ).loc main_arg1))) (dstOf (F := Ideal) (m ((c : Thread nD τ).loc main_arg1))))) (packK (F := Ideal) (m ((c : Thread nD τ).loc main_arg0))) (bdK (F := Ideal) (m ((c : Thread nD τ).loc main_arg2))) (rowK (F := Ideal) (m ((c : Thread nD τ).loc main_arg3))) (bdK (F := Ideal) (m ((c : Thread nD τ).loc main_arg4))) :=
  (W2_arr m ρ c 5).trans (out0 m ρ c)

/-- The source row is carried through the first call. -/
theorem W2_v1 (c : Dev nD) : W2 (F := Ideal) m ρ c (Proc.devRef .tc main_v1) = srcOf (F := Ideal) (m ((c : Thread nD τ).loc main_arg1)) :=
  (W2_of_ne m ρ c main_v1 (by decide)).trans (src_W1 m ρ c)
/-- The destination row is carried through the first call. -/
theorem W2_v3 (c : Dev nD) : W2 (F := Ideal) m ρ c (Proc.devRef .tc main_v3) = dstOf (F := Ideal) (m ((c : Thread nD τ).loc main_arg1)) :=
  (W2_of_ne m ρ c main_v3 (by decide)).trans (dst_W1 m ρ c)
/-- Argument 5 is as launched at the first call's exit. -/
theorem W2_arg5 (c : Dev nD) : W2 (F := Ideal) m ρ c (Proc.devRef .tc main_arg5) = m ((c : Thread nD τ).loc main_arg5) :=
  (W2_of_ne m ρ c main_arg5 (by decide)).trans (keep0_arg5 (F := Ideal) (W0 m ρ c))
/-- Argument 6 is as launched at the first call's exit. -/
theorem W2_arg6 (c : Dev nD) : W2 (F := Ideal) m ρ c (Proc.devRef .tc main_arg6) = m ((c : Thread nD τ).loc main_arg6) :=
  (W2_of_ne m ρ c main_arg6 (by decide)).trans (keep0_arg6 (F := Ideal) (W0 m ρ c))
/-- Argument 7 is as launched at the first call's exit. -/
theorem W2_arg7 (c : Dev nD) : W2 (F := Ideal) m ρ c (Proc.devRef .tc main_arg7) = m ((c : Thread nD τ).loc main_arg7) :=
  (W2_of_ne m ρ c main_arg7 (by decide)).trans (keep0_arg7 (F := Ideal) (W0 m ρ c))
/-- Argument 8 is as launched at the first call's exit. -/
theorem W2_arg8 (c : Dev nD) : W2 (F := Ideal) m ρ c (Proc.devRef .tc main_arg8) = m ((c : Thread nD τ).loc main_arg8) :=
  (W2_of_ne m ρ c main_arg8 (by decide)).trans (keep0_arg8 (F := Ideal) (W0 m ρ c))
/-- Argument 9 is as launched at the first call's exit. -/
theorem W2_arg9 (c : Dev nD) : W2 (F := Ideal) m ρ c (Proc.devRef .tc main_arg9) = m ((c : Thread nD τ).loc main_arg9) :=
  (W2_of_ne m ρ c main_arg9 (by decide)).trans (keep0_arg9 (F := Ideal) (W0 m ρ c))
/-- Argument 10 is as launched at the first call's exit. -/
theorem W2_arg10 (c : Dev nD) : W2 (F := Ideal) m ρ c (Proc.devRef .tc main_arg10) = m ((c : Thread nD τ).loc main_arg10) :=
  (W2_of_ne m ρ c main_arg10 (by decide)).trans (keep0_arg10 (F := Ideal) (W0 m ρ c))

/-! ## The second pallas_call -/

/-- Unpairing the first call's output is the first layer. -/
theorem unpack_out0 (c : Dev nD) : unpackK (F := Ideal) (combine true (packK (F := Ideal) (aggK (F := Ideal) (m ((c : Thread nD τ).loc main_arg0)) (srcOf (F := Ideal) (m ((c : Thread nD τ).loc main_arg1))) (dstOf (F := Ideal) (m ((c : Thread nD τ).loc main_arg1))))) (packK (F := Ideal) (m ((c : Thread nD τ).loc main_arg0))) (bdK (F := Ideal) (m ((c : Thread nD τ).loc main_arg2))) (rowK (F := Ideal) (m ((c : Thread nD τ).loc main_arg3))) (bdK (F := Ideal) (m ((c : Thread nD τ).loc main_arg4)))) = layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4)) := rfl

/-- The second call leaves the combine of the paired second-layer inputs. -/
theorem out1 (c : Dev nD) : (dat1 (F := Ideal) (V3 m ρ) c).arrAt 5 cfg1.N = combine true (packK (F := Ideal) (aggK (F := Ideal) (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4))) (srcOf (F := Ideal) (m ((c : Thread nD τ).loc main_arg1))) (dstOf (F := Ideal) (m ((c : Thread nD τ).loc main_arg1))))) (packK (F := Ideal) (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4)))) (bdK (F := Ideal) (m ((c : Thread nD τ).loc main_arg5))) (rowK (F := Ideal) (m ((c : Thread nD τ).loc main_arg6))) (bdK (F := Ideal) (m ((c : Thread nD τ).loc main_arg7))) := by
  rw [final1 (V3 m ρ) c]
  rw [show V3 (F := Ideal) m ρ c main_v40 = _ from host1_v40 (F := Ideal) (W2 m ρ c),
    show V3 (F := Ideal) m ρ c main_v41 = _ from host1_v41 (F := Ideal) (W2 m ρ c),
    show V3 (F := Ideal) m ρ c main_v46 = _ from host1_v46 (F := Ideal) (W2 m ρ c),
    show V3 (F := Ideal) m ρ c main_v53 = _ from host1_v53 (F := Ideal) (W2 m ρ c),
    show V3 (F := Ideal) m ρ c main_v51 = _ from host1_v51 (F := Ideal) (W2 m ρ c)]
  rw [W2_v28 m ρ c, W2_v1 m ρ c, W2_v3 m ρ c, W2_arg5 m ρ c, W2_arg6 m ρ c, W2_arg7 m ρ c, unpack_out0 m c]

/-- The second call's output buffer at its exit. -/
theorem W4_v54 (c : Dev nD) : W4 (F := Ideal) m ρ c (Proc.devRef .tc main_v54) = combine true (packK (F := Ideal) (aggK (F := Ideal) (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4))) (srcOf (F := Ideal) (m ((c : Thread nD τ).loc main_arg1))) (dstOf (F := Ideal) (m ((c : Thread nD τ).loc main_arg1))))) (packK (F := Ideal) (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4)))) (bdK (F := Ideal) (m ((c : Thread nD τ).loc main_arg5))) (rowK (F := Ideal) (m ((c : Thread nD τ).loc main_arg6))) (bdK (F := Ideal) (m ((c : Thread nD τ).loc main_arg7))) :=
  (W4_arr m ρ c 5).trans (out1 m ρ c)

/-- The source row is carried through the second stretch and the second call. -/
theorem W4_v1 (c : Dev nD) : W4 (F := Ideal) m ρ c (Proc.devRef .tc main_v1) = srcOf (F := Ideal) (m ((c : Thread nD τ).loc main_arg1)) :=
  (W4_of_ne m ρ c main_v1 (by decide)).trans ((keep1_v1 (F := Ideal) (W2 m ρ c)).trans (W2_v1 m ρ c))
/-- The destination row is carried through the second stretch and the second call. -/
theorem W4_v3 (c : Dev nD) : W4 (F := Ideal) m ρ c (Proc.devRef .tc main_v3) = dstOf (F := Ideal) (m ((c : Thread nD τ).loc main_arg1)) :=
  (W4_of_ne m ρ c main_v3 (by decide)).trans ((keep1_v3 (F := Ideal) (W2 m ρ c)).trans (W2_v3 m ρ c))
/-- Argument 8 is as launched at the second call's exit. -/
theorem W4_arg8 (c : Dev nD) : W4 (F := Ideal) m ρ c (Proc.devRef .tc main_arg8) = m ((c : Thread nD τ).loc main_arg8) :=
  (W4_of_ne m ρ c main_arg8 (by decide)).trans ((keep1_arg8 (F := Ideal) (W2 m ρ c)).trans (W2_arg8 m ρ c))
/-- Argument 9 is as launched at the second call's exit. -/
theorem W4_arg9 (c : Dev nD) : W4 (F := Ideal) m ρ c (Proc.devRef .tc main_arg9) = m ((c : Thread nD τ).loc main_arg9) :=
  (W4_of_ne m ρ c main_arg9 (by decide)).trans ((keep1_arg9 (F := Ideal) (W2 m ρ c)).trans (W2_arg9 m ρ c))
/-- Argument 10 is as launched at the second call's exit. -/
theorem W4_arg10 (c : Dev nD) : W4 (F := Ideal) m ρ c (Proc.devRef .tc main_arg10) = m ((c : Thread nD τ).loc main_arg10) :=
  (W4_of_ne m ρ c main_arg10 (by decide)).trans ((keep1_arg10 (F := Ideal) (W2 m ρ c)).trans (W2_arg10 m ρ c))

/-! ## The third pallas_call and the result -/

/-- Unpairing the second call's output is the second layer. -/
theorem unpack_out1 (c : Dev nD) : unpackK (F := Ideal) (combine true (packK (F := Ideal) (aggK (F := Ideal) (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4))) (srcOf (F := Ideal) (m ((c : Thread nD τ).loc main_arg1))) (dstOf (F := Ideal) (m ((c : Thread nD τ).loc main_arg1))))) (packK (F := Ideal) (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4)))) (bdK (F := Ideal) (m ((c : Thread nD τ).loc main_arg5))) (rowK (F := Ideal) (m ((c : Thread nD τ).loc main_arg6))) (bdK (F := Ideal) (m ((c : Thread nD τ).loc main_arg7)))) = layerK true (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4))) (srcOf (F := Ideal) (m ((c : Thread nD τ).loc main_arg1))) (dstOf (F := Ideal) (m ((c : Thread nD τ).loc main_arg1))) (m ((c : Thread nD τ).loc main_arg5)) (m ((c : Thread nD τ).loc main_arg6)) (m ((c : Thread nD τ).loc main_arg7)) := rfl

/-- The third call leaves the combine of the paired third-layer inputs. -/
theorem out2 (c : Dev nD) : (dat2 (F := Ideal) (V5 m ρ) c).arrAt 5 cfg2.N = combine false (packK (F := Ideal) (aggK (F := Ideal) (layerK true (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4))) (srcOf (F := Ideal) (m ((c : Thread nD τ).loc main_arg1))) (dstOf (F := Ideal) (m ((c : Thread nD τ).loc main_arg1))) (m ((c : Thread nD τ).loc main_arg5)) (m ((c : Thread nD τ).loc main_arg6)) (m ((c : Thread nD τ).loc main_arg7))) (srcOf (F := Ideal) (m ((c : Thread nD τ).loc main_arg1))) (dstOf (F := Ideal) (m ((c : Thread nD τ).loc main_arg1))))) (packK (F := Ideal) (layerK true (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4))) (srcOf (F := Ideal) (m ((c : Thread nD τ).loc main_arg1))) (dstOf (F := Ideal) (m ((c : Thread nD τ).loc main_arg1))) (m ((c : Thread nD τ).loc main_arg5)) (m ((c : Thread nD τ).loc main_arg6)) (m ((c : Thread nD τ).loc main_arg7)))) (bdK (F := Ideal) (m ((c : Thread nD τ).loc main_arg8))) (rowK (F := Ideal) (m ((c : Thread nD τ).loc main_arg9))) (bdK (F := Ideal) (m ((c : Thread nD τ).loc main_arg10))) := by
  rw [final2 (V5 m ρ) c]
  rw [show V5 (F := Ideal) m ρ c main_v66 = _ from host2_v66 (F := Ideal) (W4 m ρ c),
    show V5 (F := Ideal) m ρ c main_v67 = _ from host2_v67 (F := Ideal) (W4 m ρ c),
    show V5 (F := Ideal) m ρ c main_v72 = _ from host2_v72 (F := Ideal) (W4 m ρ c),
    show V5 (F := Ideal) m ρ c main_v79 = _ from host2_v79 (F := Ideal) (W4 m ρ c),
    show V5 (F := Ideal) m ρ c main_v77 = _ from host2_v77 (F := Ideal) (W4 m ρ c)]
  rw [W4_v54 m ρ c, W4_v1 m ρ c, W4_v3 m ρ c, W4_arg8 m ρ c, W4_arg9 m ρ c, W4_arg10 m ρ c, unpack_out1 m c]

/-- The result buffer's contents at the last boundary: three layers of the stack, as the kernel's program computes
    them, of the arguments' launch contents. -/
theorem kernel_value (c : Dev nD) :
    W7 (F := Ideal) m ρ c (Proc.devRef .tc main_v81)
      = layerK false (layerK true (layerK true (m ((c : Thread nD τ).loc main_arg0)) (srcOf (F := Ideal) (m ((c : Thread nD τ).loc main_arg1))) (dstOf (F := Ideal) (m ((c : Thread nD τ).loc main_arg1))) (m ((c : Thread nD τ).loc main_arg2)) (m ((c : Thread nD τ).loc main_arg3)) (m ((c : Thread nD τ).loc main_arg4))) (srcOf (F := Ideal) (m ((c : Thread nD τ).loc main_arg1))) (dstOf (F := Ideal) (m ((c : Thread nD τ).loc main_arg1))) (m ((c : Thread nD τ).loc main_arg5)) (m ((c : Thread nD τ).loc main_arg6)) (m ((c : Thread nD τ).loc main_arg7))) (srcOf (F := Ideal) (m ((c : Thread nD τ).loc main_arg1))) (dstOf (F := Ideal) (m ((c : Thread nD τ).loc main_arg1))) (m ((c : Thread nD τ).loc main_arg8)) (m ((c : Thread nD τ).loc main_arg9)) (m ((c : Thread nD τ).loc main_arg10)) := by
  rw [show W7 (F := Ideal) m ρ c (Proc.devRef .tc main_v81) = _ from host3_v81 (F := Ideal) (W6 m ρ c)]
  rw [show W6 (F := Ideal) m ρ c (Proc.devRef .tc main_v80) = _ from (W6_arr m ρ c 5).trans (out2 m ρ c)]
  rfl

end Cert.GConv

end
-- ==== Proof.RDefs.lean ====
/-
  The neighbour sum as the reference program applies it: gather the source rows of the edge list (a negative source
  index wrapped by 50000 first), scatter-add them at the destination rows — over the reference program's own shapes
  and dimension records.
-/
import proofs.«118596_j89790586290566_2_alg».proof.Proof.Gen.ReferenceIdeal

noncomputable section

namespace Cert.GConv

open Idealize.ShloMosaic Cert.ReferenceIdeal Cert.ReferenceIdeal.Gen

variable {F : FTy → Type} [FloatOps F]

/-- The neighbour sum of the rows of `X` along the edge list `E`, as the reference computes it. -/
def aggR (X : (⟨S50000x64, .f32⟩ : BufTy).Contents (Elt F)) (E : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0
      (shapeCast _ (extractStridedSlice S1x800000 ![1, 0] E slices_S2x800000_S1x800000_1_0) shapeCasts_S1x800000_S800000))
    (Host.gather gather_S50000x64_S800000x1_S800000x64_1_0_n_n_0_1_164 X
      (broadcastInDim S800000x1 ![0] bcast_S800000_S800000x1_0
        (select (cmpi .slt (shapeCast _ (extractStridedSlice S1x800000 ![0, 0] E slices_S2x800000_S1x800000_0_0) shapeCasts_S1x800000_S800000)
            (broadcastInDim S800000 ![] bcast_S_S800000 (constantI S_ 32 0#32)))
          (addi (shapeCast _ (extractStridedSlice S1x800000 ![0, 0] E slices_S2x800000_S1x800000_0_0) shapeCasts_S1x800000_S800000)
            (broadcastInDim S800000 ![] bcast_S_S800000 (constantI S_ 32 50000#32)))
          (shapeCast _ (extractStridedSlice S1x800000 ![0, 0] E slices_S2x800000_S1x800000_0_0) shapeCasts_S1x800000_S800000))))

end Cert.GConv

end
-- ==== Proof.RefValue.lean ====
/-
  The reference program's result, read: three layers of the stack — the neighbour sum, the two products with the
  transposed weights, the bias, and between layers the positive part — of the arguments' launch contents.

  The neighbour sum (gather the source rows, scatter-add them at the destination rows) is never opened: in each layer it
  is the same composition of operations as `aggR`, applied to that layer's features. What is read at an index is the
  rest of a layer: at node `n` and output feature `c` a product with a transposed weight is `∑ k, A(n,k) · W(c,k)`, the
  broadcast bias is `b(c)`, and the three are added as (product + bias) + product — the association `layer` has. The
  maximum against the zero splat is `max x 0`. The three layers are then chained, each over the previous one's output.
-/
import proofs.«118596_j89790586290566_2_alg».proof.Proof.Gen.ReferenceIdeal.Run
import proofs.«118596_j89790586290566_2_alg».proof.Proof.Gen.ReferenceIdeal.Read
import proofs.«118596_j89790586290566_2_alg».proof.Proof.RDefs
import proofs.«118596_j89790586290566_2_alg».proof.Proof.Spec
import proofs.«118596_j89790586290566_2_alg».proof.Proof.LibMatmulSum

noncomputable section

namespace Cert.GConv

open Idealize.ShloMosaic Idealize.ShloMosaic.TcCoe Idealize.ShloMosaic.ValueIdx Idealize.SL.Sem
open Cert.ReferenceIdeal Cert.ReferenceIdeal.Gen

namespace Ref

open Cert.ReferenceIdeal.Read

/-- The reference's neighbour sum in the first layer: the scatter-add of the gathered source rows is `aggR`. -/
theorem agg_first {F : FTy → Type} [FloatOps F] (H : (⟨S50000x64, .f32⟩ : BufTy).Contents (Elt F))
    (E : (⟨S2x800000, .i32⟩ : BufTy).Contents (Elt F)) :
    Host.scatterAdd scatter_S50000x64_S800000x1_S800000x64_1_0_0_1 (val_main_v11 (F := F)) (val_main_v12 (F := F) E)
      (Host.gather gather_S50000x64_S800000x1_S800000x64_1_0_n_n_0_1_164 H (val_main_v9 (F := F) E)) = aggR (F := F) H E := by
  unfold val_main_v11 val_main_cst val_main_v12 val_main_v3 val_main_v2 val_main_v9 val_main_v8 val_main_v5 val_main_v7 val_main_v4
    val_main_v6 val_main_c val_main_c_0 val_main_v1 val_main_v0 aggR
  rfl

/-- The same in the second layer (the program recomputes the wrapped source rows and the destination rows). -/
theorem agg_second {F : FTy → Type} [FloatOps F] (H : (⟨S50000x64, .f32⟩ : BufTy).Contents (Elt F))
    (E : (⟨S2x800000, .i32⟩ : BufTy).Contents (Elt F)) :
    Host.scatterAdd scatter_S50000x64_S800000x1_S800000x64_1_0_0_1 (val_main_v30 (F := F)) (val_main_v31 (F := F) E)
      (Host.gather gather_S50000x64_S800000x1_S800000x64_1_0_n_n_0_1_164 H (val_main_v28 (F := F) E)) = aggR (F := F) H E := by
  unfold val_main_v30 val_main_cst_3 val_main_v31 val_main_v3 val_main_v2 val_main_v28 val_main_v27 val_main_v24 val_main_v26 val_main_v23
    val_main_v25 val_main_c_1 val_main_c_2 val_main_v1 val_main_v0 aggR
  rfl

/-- The same in the third layer. -/
theorem agg_third {F : FTy → Type} [FloatOps F] (H : (⟨S50000x64, .f32⟩ : BufTy).Contents (Elt F))
    (E : (⟨S2x800000, .i32⟩ : BufTy).Contents (Elt F)) :
    Host.scatterAdd scatter_S50000x64_S800000x1_S800000x64_1_0_0_1 (val_main_v49 (F := F)) (val_main_v50 (F := F) E)
      (Host.gather gather_S50000x64_S800000x1_S800000x64_1_0_n_n_0_1_164 H (val_main_v47 (F := F) E)) = aggR (F := F) H E := by
  unfold val_main_v49 val_main_cst_6 val_main_v50 val_main_v3 val_main_v2 val_main_v47 val_main_v46 val_main_v43 val_main_v45 val_main_v42
    val_main_v44 val_main_c_4 val_main_c_5 val_main_v1 val_main_v0 aggR
  rfl

/-- A product with a transposed weight, at node `n` and output feature `c`: `∑ k, A(n,k) · W(c,k)`. -/
theorem dotT_apply (A : FVec Ideal S50000x64 .f32) (W : FVec Ideal S64x64 .f32) (i : S50000x64.Idx) :
    Host.dotGeneral (F := Ideal) dot_S50000x64_S64x64_S50000x64_1_0_0_1_n_n none A
        (transpose S64x64 [1, 0] W transposes_S64x64_S64x64_1_0) i
      = ∑ k : Fin 64, A (ix2 (i 0) k) * W (ix2 (i 1) k) := by
  simp only [Host.dotGeneral]
  rw [MatmulSum.dotGeneral_apply dot_S50000x64_S64x64_S50000x64_1_0_0_1_n_n rfl rfl rfl rfl rfl rfl]
  refine Finset.sum_congr rfl fun k _ => ?_
  rw [transpose_apply [1, 0] W transposes_S64x64_S64x64_1_0 (ix2 k (i 1)) (ix2 (i 1) k) (fun b => match b with
    | ⟨0, _⟩ => rfl
    | ⟨1, _⟩ => rfl)]

/-- The bias, made a row and repeated over the nodes, at node `n` and output feature `c`: `b(c)`. -/
theorem bias_apply (b : FVec Ideal S64 .f32) (i : S50000x64.Idx) :
    broadcastInDim S50000x64 ![0, 1] bcast_S1x64_S50000x64_0_1 (broadcastInDim S1x64 ![1] bcast_S64_S1x64_1 b) i
      = b (ix1 (i 1)) :=
  (val_main_v17_apply (F := Ideal) b i).trans ((val_main_v16_apply (F := Ideal) b _).trans
    (congrArg b (funext fun a => Fin.ext (by match a with | ⟨0, _⟩ => rfl))))

/-- The operations of one layer — product, bias, product, added in this order — are `layer`. -/
theorem layer_read (A X : FVec Ideal S50000x64 .f32) (W : FVec Ideal S64x64 .f32) (b : FVec Ideal S64 .f32)
    (W' : FVec Ideal S64x64 .f32) :
    addf (addf (Host.dotGeneral (F := Ideal) dot_S50000x64_S64x64_S50000x64_1_0_0_1_n_n none A
            (transpose S64x64 [1, 0] W transposes_S64x64_S64x64_1_0))
          (broadcastInDim S50000x64 ![0, 1] bcast_S1x64_S50000x64_0_1 (broadcastInDim S1x64 ![1] bcast_S64_S1x64_1 b)))
        (Host.dotGeneral (F := Ideal) dot_S50000x64_S64x64_S50000x64_1_0_0_1_n_n none X
          (transpose S64x64 [1, 0] W' transposes_S64x64_S64x64_1_0))
      = layer A X W b W' := by
  funext i
  rw [addf_apply, addf_apply, dotT_apply, dotT_apply, bias_apply]
  rfl

/-- The maximum against the zero splat is the positive part. -/
theorem relu_read (Y : FVec Ideal S50000x64 .f32) (i : S50000x64.Idx) :
    maximumf Y (broadcastInDim S50000x64 ![] bcast_S_S50000x64 (constant (F := Ideal) S_ .f32 0x00000000#32)) i
      = reluIf true (Y i) := by
  rw [maximumf_apply,
    show broadcastInDim S50000x64 ![] bcast_S_S50000x64 (constant (F := Ideal) S_ .f32 0x00000000#32) i
        = Ideal.ofBits .f32 0x00000000#32
      from (val_main_call0_v0_apply (F := Ideal) i).trans (val_main_call0_cst_apply (F := Ideal) _),
    Ideal.ofBits_zero_f32]
  exact (if_pos rfl).symm

/-- Without the positive part a layer is `layer` itself. -/
theorem layerR_false (A X : (⟨2, ![50000, 64]⟩ : Shape).Idx → EReal) (W : (⟨2, ![64, 64]⟩ : Shape).Idx → EReal)
    (b : (⟨1, ![64]⟩ : Shape).Idx → EReal) (W' : (⟨2, ![64, 64]⟩ : Shape).Idx → EReal) :
    layerR false A X W b W' = layer A X W b W' :=
  funext fun i => by
    show (if false = true then max (layer A X W b W' i) 0 else layer A X W b W' i) = layer A X W b W' i
    exact if_neg Bool.false_ne_true

section stages

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal)) (x4 : (⟨S64x64, .f32⟩ : BufTy).Contents (Elt Ideal))
  (x5 : (⟨S64x64, .f32⟩ : BufTy).Contents (Elt Ideal)) (x6 : (⟨S64, .f32⟩ : BufTy).Contents (Elt Ideal)) (x7 : (⟨S64x64, .f32⟩ : BufTy).Contents (Elt Ideal))
  (x8 : (⟨S64x64, .f32⟩ : BufTy).Contents (Elt Ideal)) (x9 : (⟨S64, .f32⟩ : BufTy).Contents (Elt Ideal)) (x10 : (⟨S64x64, .f32⟩ : BufTy).Contents (Elt Ideal))

/-- The first layer before its positive part. -/
theorem stage21 : val_main_v21 (F := Ideal) x0 x1 x2 x3 x4 = layer (aggR (F := Ideal) x0 x1) x0 x2 x3 x4 := by
  unfold val_main_v21 val_main_v18 val_main_v15 val_main_v14 val_main_v17 val_main_v16 val_main_v20 val_main_v19 val_main_v13
    val_main_v10
  rw [agg_first]
  exact layer_read _ _ _ _ _

/-- The first layer. -/
theorem stage22 : val_main_v22 (F := Ideal) x0 x1 x2 x3 x4 = layerR true (aggR (F := Ideal) x0 x1) x0 x2 x3 x4 := by
  funext i
  unfold val_main_v22 val_main_call0_v0 val_main_call0_cst
  rw [relu_read, stage21]
  rfl

/-- The second layer before its positive part, over the first layer's output. -/
theorem stage40 : val_main_v40 (F := Ideal) x0 x1 x2 x3 x4 x5 x6 x7
    = layer (aggR (F := Ideal) (val_main_v22 (F := Ideal) x0 x1 x2 x3 x4) x1) (val_main_v22 (F := Ideal) x0 x1 x2 x3 x4) x5 x6 x7 := by
  unfold val_main_v40 val_main_v37 val_main_v34 val_main_v33 val_main_v36 val_main_v35 val_main_v39 val_main_v38 val_main_v32
    val_main_v29
  rw [agg_second]
  exact layer_read _ _ _ _ _

/-- The second layer. -/
theorem stage41 : val_main_v41 (F := Ideal) x0 x1 x2 x3 x4 x5 x6 x7
    = layerR true (aggR (F := Ideal) (val_main_v22 (F := Ideal) x0 x1 x2 x3 x4) x1) (val_main_v22 (F := Ideal) x0 x1 x2 x3 x4) x5 x6 x7 := by
  funext i
  unfold val_main_v41 val_main_call1_v0 val_main_call1_cst
  rw [relu_read, stage40]
  rfl

/-- The third layer, over the second layer's output. -/
theorem stage59 : val_main_v59 (F := Ideal) x0 x1 x2 x3 x4 x5 x6 x7 x8 x9 x10
    = layerR false (aggR (F := Ideal) (val_main_v41 (F := Ideal) x0 x1 x2 x3 x4 x5 x6 x7) x1)
        (val_main_v41 (F := Ideal) x0 x1 x2 x3 x4 x5 x6 x7) x8 x9 x10 := by
  rw [layerR_false]
  unfold val_main_v59 val_main_v56 val_main_v53 val_main_v52 val_main_v55 val_main_v54 val_main_v58 val_main_v57 val_main_v51
    val_main_v48
  rw [agg_third]
  exact layer_read _ _ _ _ _

end stages

/-- The reference's last stage is the three layers of its arguments. -/
theorem ref_stack (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v59 (F := Ideal) x0 x1 x2 x3 x4 x5 x6 x7 x8 x9 x10
      = layerR false
          (aggR (F := Ideal)
            (layerR true (aggR (F := Ideal) (layerR true (aggR (F := Ideal) x0 x1) x0 x2 x3 x4) x1)
              (layerR true (aggR (F := Ideal) x0 x1) x0 x2 x3 x4) x5 x6 x7) x1)
          (layerR true (aggR (F := Ideal) (layerR true (aggR (F := Ideal) x0 x1) x0 x2 x3 x4) x1)
            (layerR true (aggR (F := Ideal) x0 x1) x0 x2 x3 x4) x5 x6 x7) x8 x9 x10 := by
  rw [stage59, stage41, stage22]

end Ref

/-- The reference's result term is the three layers of the arguments' launch contents. -/
theorem ref_value (m : (ℓ : Loc nD τ sig) → Buf (Elt Ideal) ℓ) (c : Dev nD) :
    Cert.ReferenceIdeal.Value.res_main_v59 (F := Ideal) m c
      = layerR false
          (aggR (F := Ideal)
            (layerR true
              (aggR (F := Ideal)
                (layerR true (aggR (F := Ideal) (m ((c.tc : Thread nD τ).loc main_arg0)) (m ((c.tc : Thread nD τ).loc main_arg1)))
                  (m ((c.tc : Thread nD τ).loc main_arg0)) (m ((c.tc : Thread nD τ).loc main_arg2)) (m ((c.tc : Thread nD τ).loc main_arg3)) (m ((c.tc : Thread nD τ).loc main_arg4)))
                (m ((c.tc : Thread nD τ).loc main_arg1)))
              (layerR true (aggR (F := Ideal) (m ((c.tc : Thread nD τ).loc main_arg0)) (m ((c.tc : Thread nD τ).loc main_arg1)))
                  (m ((c.tc : Thread nD τ).loc main_arg0)) (m ((c.tc : Thread nD τ).loc main_arg2)) (m ((c.tc : Thread nD τ).loc main_arg3)) (m ((c.tc : Thread nD τ).loc main_arg4)))
              (m ((c.tc : Thread nD τ).loc main_arg5)) (m ((c.tc : Thread nD τ).loc main_arg6)) (m ((c.tc : Thread nD τ).loc main_arg7)))
            (m ((c.tc : Thread nD τ).loc main_arg1)))
          (layerR true
              (aggR (F := Ideal)
                (layerR true (aggR (F := Ideal) (m ((c.tc : Thread nD τ).loc main_arg0)) (m ((c.tc : Thread nD τ).loc main_arg1)))
                  (m ((c.tc : Thread nD τ).loc main_arg0)) (m ((c.tc : Thread nD τ).loc main_arg2)) (m ((c.tc : Thread nD τ).loc main_arg3)) (m ((c.tc : Thread nD τ).loc main_arg4)))
                (m ((c.tc : Thread nD τ).loc main_arg1)))
              (layerR true (aggR (F := Ideal) (m ((c.tc : Thread nD τ).loc main_arg0)) (m ((c.tc : Thread nD τ).loc main_arg1)))
                  (m ((c.tc : Thread nD τ).loc main_arg0)) (m ((c.tc : Thread nD τ).loc main_arg2)) (m ((c.tc : Thread nD τ).loc main_arg3)) (m ((c.tc : Thread nD τ).loc main_arg4)))
              (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) := by
  exact (Read.val_main_v59_eq (F := Ideal) m c).trans (Ref.ref_stack _ _ _ _ _ _ _ _ _ _ _)

end Cert.GConv

end
-- ==== Proof.KMath.lean ====
/-
  The paired computation is the layer: unpairing the combine of the paired neighbour sums and features against the
  block-diagonal weights and the doubled bias gives, at node n and feature c, the layer's
  ∑ k, A(n,k)·Wrel(c,k) + b(c) + ∑ k, X(n,k)·Wroot(c,k) (then the positive part, where the layer has one).

  Node n sits in paired row n / 2, in the lower 64 lanes when n is even and the upper 64 when n is odd (both arrays are
  row-major: n·64 + c = (n/2)·128 + (n%2)·64 + c). A sum over the 128 lanes splits into the two halves; on the node's own
  half the block-diagonal weight is the transposed weight, so the term is A(n,k')·W(c,k'); on the other half the weight
  is the zero block and every term is x·0 = 0, for every extended real x. What is left differs from the layer only in
  the order of the additions, (s + t) + u = (s + u) + t, which holds on the extended reals without any finiteness.
-/
import proofs.«118596_j89790586290566_2_alg».proof.Proof.KLayer
import Idealize.ShloMosaic.Lib.Pipeline.Value
import Idealize.ShloMosaic.Lib.ValueLayout
import Idealize.ShloMosaic.PureOps.Ideal.Laws

noncomputable section

namespace Cert.GConv

open Idealize.ShloMosaic Idealize.ShloMosaic.TcCoe Idealize.ShloMosaic.ValueIdx Idealize.SL.Sem
open Cert.KernelIdeal Cert.KernelIdeal.Gen

/-- Pairing reads, at paired row r' and lane k, the entry of the unpaired array with the same row-major position. -/
theorem packK_apply (X : (⟨S50000x64, .f32⟩ : BufTy).Contents (Elt Ideal)) (r' : Fin 25000) (k : Fin 128)
    (n : Fin 50000) (c : Fin 64) (h : n.val * 64 + c.val = r'.val * 128 + k.val) :
    packK (F := Ideal) X (ix2 r' k) = X (ix2 n c) :=
  shapeCast_apply X shapeCasts_S50000x64_S25000x128 (ix2 r' k) (ix2 n c) (by
    rw [Shape.rowMajor_val_two, Shape.rowMajor_val_two]; exact h)

/-- Unpairing reads, at node n and feature c, the entry of the paired array with the same row-major position. -/
theorem unpackK_apply (Y : (⟨S25000x128, .f32⟩ : BufTy).Contents (Elt Ideal)) (n : Fin 50000) (c : Fin 64)
    (r' : Fin 25000) (j : Fin 128) (h : r'.val * 128 + j.val = n.val * 64 + c.val) :
    unpackK (F := Ideal) Y (ix2 n c) = Y (ix2 r' j) :=
  shapeCast_apply Y shapeCasts_S25000x128_S50000x64 (ix2 n c) (ix2 r' j) (by
    rw [Shape.rowMajor_val_two, Shape.rowMajor_val_two]; exact h)

/-- A sum over the 128 lanes is the sum over the lower 64 plus the sum over the upper 64. -/
theorem sum_halves (f : Fin 128 → EReal) :
    ∑ k : Fin 128, f k = ∑ k' : Fin 64, f ⟨k'.val, by omega⟩ + ∑ k' : Fin 64, f ⟨64 + k'.val, by omega⟩ :=
  Fin.sum_univ_add (a := 64) (b := 64) f

/-- The zero block of the block-diagonal weight reads zero everywhere. -/
theorem zeroBlock_apply (i : S64x64.Idx) :
    broadcastInDim S64x64 ![] bcast_S_S64x64 (constant (F := Ideal) S_ .f32 0x00000000#32) i = (0 : EReal) :=
  (broadcastInDim_apply ![] bcast_S_S64x64 _ i ix0 (fun a => a.elim0)).trans Ideal.ofBits_zero_f32

/-- Upper-left block of the block-diagonal weight: the transposed weight. -/
theorem bdK_tl (W : (⟨S64x64, .f32⟩ : BufTy).Contents (Elt Ideal)) (k' j' : Fin 64) :
    bdK (F := Ideal) W (ix2 (⟨k'.val, by omega⟩ : Fin 128) (⟨j'.val, by omega⟩ : Fin 128)) = W (ix2 j' k') := by
  unfold bdK
  refine (concatenate_pair_apply_left _ _ _ concatenates_S64x128_S64x128_S128x128_d0 _ rfl
    (ix2 k' (⟨j'.val, by omega⟩ : Fin 128)) (fun b => match b with | ⟨0, _⟩ => rfl | ⟨1, _⟩ => rfl)).trans ?_
  refine (concatenate_pair_apply_left _ _ _ concatenates_S64x64_S64x64_S64x128_d1 _ rfl
    (ix2 k' j') (fun b => match b with | ⟨0, _⟩ => rfl | ⟨1, _⟩ => rfl)).trans ?_
  exact transpose_ix2_apply W transposes_S64x64_S64x64_1_0 k' j'

/-- Upper-right block: zero. -/
theorem bdK_tr (W : (⟨S64x64, .f32⟩ : BufTy).Contents (Elt Ideal)) (k' j' : Fin 64) :
    bdK (F := Ideal) W (ix2 (⟨k'.val, by omega⟩ : Fin 128) (⟨64 + j'.val, by omega⟩ : Fin 128)) = (0 : EReal) := by
  unfold bdK
  refine (concatenate_pair_apply_left _ _ _ concatenates_S64x128_S64x128_S128x128_d0 _ rfl
    (ix2 k' (⟨64 + j'.val, by omega⟩ : Fin 128)) (fun b => match b with | ⟨0, _⟩ => rfl | ⟨1, _⟩ => rfl)).trans ?_
  refine (concatenate_pair_apply_right _ _ _ concatenates_S64x64_S64x64_S64x128_d1 _ rfl rfl
    (ix2 k' j') (fun b hb => match b, hb with | ⟨0, _⟩, _ => rfl | ⟨1, _⟩, hb => absurd rfl hb)
    (by show j'.val + 64 = 64 + j'.val; omega)).trans ?_
  exact zeroBlock_apply _

/-- Lower-left block: zero. -/
theorem bdK_bl (W : (⟨S64x64, .f32⟩ : BufTy).Contents (Elt Ideal)) (k' j' : Fin 64) :
    bdK (F := Ideal) W (ix2 (⟨64 + k'.val, by omega⟩ : Fin 128) (⟨j'.val, by omega⟩ : Fin 128)) = (0 : EReal) := by
  unfold bdK
  refine (concatenate_pair_apply_right _ _ _ concatenates_S64x128_S64x128_S128x128_d0 _ rfl rfl
    (ix2 k' (⟨j'.val, by omega⟩ : Fin 128)) (fun b hb => match b, hb with | ⟨0, _⟩, hb => absurd rfl hb | ⟨1, _⟩, _ => rfl)
    (by show k'.val + 64 = 64 + k'.val; omega)).trans ?_
  refine (concatenate_pair_apply_left _ _ _ concatenates_S64x64_S64x64_S64x128_d1 _ rfl
    (ix2 k' j') (fun b => match b with | ⟨0, _⟩ => rfl | ⟨1, _⟩ => rfl)).trans ?_
  exact zeroBlock_apply _

/-- Lower-right block: the transposed weight. -/
theorem bdK_br (W : (⟨S64x64, .f32⟩ : BufTy).Contents (Elt Ideal)) (k' j' : Fin 64) :
    bdK (F := Ideal) W (ix2 (⟨64 + k'.val, by omega⟩ : Fin 128) (⟨64 + j'.val, by omega⟩ : Fin 128)) = W (ix2 j' k') := by
  unfold bdK
  refine (concatenate_pair_apply_right _ _ _ concatenates_S64x128_S64x128_S128x128_d0 _ rfl rfl
    (ix2 k' (⟨64 + j'.val, by omega⟩ : Fin 128)) (fun b hb => match b, hb with | ⟨0, _⟩, hb => absurd rfl hb | ⟨1, _⟩, _ => rfl)
    (by show k'.val + 64 = 64 + k'.val; omega)).trans ?_
  refine (concatenate_pair_apply_right _ _ _ concatenates_S64x64_S64x64_S64x128_d1 _ rfl rfl
    (ix2 k' j') (fun b hb => match b, hb with | ⟨0, _⟩, _ => rfl | ⟨1, _⟩, hb => absurd rfl hb)
    (by show j'.val + 64 = 64 + j'.val; omega)).trans ?_
  exact transpose_ix2_apply W transposes_S64x64_S64x64_1_0 k' j'

/-- The doubled bias row, lower half: the bias. -/
theorem rowK_lo (b : (⟨S64, .f32⟩ : BufTy).Contents (Elt Ideal)) (c : Fin 64) :
    rowK (F := Ideal) b (ix2 (0 : Fin 1) (⟨c.val, by omega⟩ : Fin 128)) = b (ix1 c) := by
  unfold rowK
  refine (shapeCast_a_1a_apply _ shapeCasts_S128_S1x128 0 _).trans ?_
  exact concatenate_pair_apply_left _ b b concatenates_S64_S64_S128_d0 _ rfl (ix1 c)
    (fun a => match a with | ⟨0, _⟩ => rfl)

/-- The doubled bias row, upper half: the bias again. -/
theorem rowK_hi (b : (⟨S64, .f32⟩ : BufTy).Contents (Elt Ideal)) (c : Fin 64) :
    rowK (F := Ideal) b (ix2 (0 : Fin 1) (⟨64 + c.val, by omega⟩ : Fin 128)) = b (ix1 c) := by
  unfold rowK
  refine (shapeCast_a_1a_apply _ shapeCasts_S128_S1x128 0 _).trans ?_
  exact concatenate_pair_apply_right _ b b concatenates_S64_S64_S128_d0 _ rfl rfl (ix1 c)
    (fun a ha => match a, ha with | ⟨0, _⟩, ha => absurd rfl ha)
    (by show c.val + 64 = 64 + c.val; omega)

/-- The combine read at paired row r' and lane j. -/
theorem combine_apply (r : Bool) (A2 X2 : (⟨2, ![25000, 128]⟩ : Shape).Idx → EReal) (Brel : (⟨2, ![128, 128]⟩ : Shape).Idx → EReal)
    (b2 : (⟨2, ![1, 128]⟩ : Shape).Idx → EReal) (Broot : (⟨2, ![128, 128]⟩ : Shape).Idx → EReal) (r' : Fin 25000) (j : Fin 128) :
    combine r A2 X2 Brel b2 Broot (ix2 r' j) = reluIf r (((∑ k : Fin 128, A2 (ix2 r' k) * Brel (ix2 k j))
      + ∑ k : Fin 128, X2 (ix2 r' k) * Broot (ix2 k j)) + b2 (ix2 (0 : Fin 1) j)) := rfl

/-- The layer read at node n and feature c. -/
theorem layerR_apply (r : Bool) (A X : (⟨2, ![50000, 64]⟩ : Shape).Idx → EReal) (Wrel : (⟨2, ![64, 64]⟩ : Shape).Idx → EReal)
    (b : (⟨1, ![64]⟩ : Shape).Idx → EReal) (Wroot : (⟨2, ![64, 64]⟩ : Shape).Idx → EReal) (n : Fin 50000) (c : Fin 64) :
    layerR r A X Wrel b Wroot (ix2 n c) = reluIf r ((∑ k : Fin 64, A (ix2 n k) * Wrel (ix2 c k)) + b (ix1 c)
      + ∑ k : Fin 64, X (ix2 n k) * Wroot (ix2 c k)) := rfl

/-- An even node is the lower half of its paired row: the product against the block-diagonal weight keeps the lower 64
    lanes, where the weight's block is the transposed weight, and loses the upper 64, where it is zero. -/
theorem pair_sum_even (A : (⟨S50000x64, .f32⟩ : BufTy).Contents (Elt Ideal)) (W : (⟨S64x64, .f32⟩ : BufTy).Contents (Elt Ideal))
    (n : Fin 50000) (c : Fin 64) (h : n.val % 2 = 0) :
    ∑ k : Fin 128, packK (F := Ideal) A (ix2 (⟨n.val / 2, by omega⟩ : Fin 25000) k)
        * bdK (F := Ideal) W (ix2 k (⟨c.val, by omega⟩ : Fin 128))
      = ∑ k' : Fin 64, A (ix2 n k') * W (ix2 c k') := by
  rw [sum_halves]
  have hz : ∑ k' : Fin 64, packK (F := Ideal) A (ix2 (⟨n.val / 2, by omega⟩ : Fin 25000) (⟨64 + k'.val, by omega⟩ : Fin 128))
      * bdK (F := Ideal) W (ix2 (⟨64 + k'.val, by omega⟩ : Fin 128) (⟨c.val, by omega⟩ : Fin 128)) = 0 :=
    Finset.sum_eq_zero fun k' _ => by rw [bdK_bl, mul_zero]
  rw [hz, add_zero]
  refine Finset.sum_congr rfl fun k' _ => ?_
  rw [bdK_tl, packK_apply A _ _ n k' (by show n.val * 64 + k'.val = n.val / 2 * 128 + k'.val; omega)]

/-- An odd node is the upper half of its paired row. -/
theorem pair_sum_odd (A : (⟨S50000x64, .f32⟩ : BufTy).Contents (Elt Ideal)) (W : (⟨S64x64, .f32⟩ : BufTy).Contents (Elt Ideal))
    (n : Fin 50000) (c : Fin 64) (h : n.val % 2 = 1) :
    ∑ k : Fin 128, packK (F := Ideal) A (ix2 (⟨n.val / 2, by omega⟩ : Fin 25000) k)
        * bdK (F := Ideal) W (ix2 k (⟨64 + c.val, by omega⟩ : Fin 128))
      = ∑ k' : Fin 64, A (ix2 n k') * W (ix2 c k') := by
  rw [sum_halves]
  have hz : ∑ k' : Fin 64, packK (F := Ideal) A (ix2 (⟨n.val / 2, by omega⟩ : Fin 25000) (⟨k'.val, by omega⟩ : Fin 128))
      * bdK (F := Ideal) W (ix2 (⟨k'.val, by omega⟩ : Fin 128) (⟨64 + c.val, by omega⟩ : Fin 128)) = 0 :=
    Finset.sum_eq_zero fun k' _ => by rw [bdK_tr, mul_zero]
  rw [hz, zero_add]
  refine Finset.sum_congr rfl fun k' _ => ?_
  rw [bdK_br, packK_apply A _ _ n k' (by show n.val * 64 + k'.val = n.val / 2 * 128 + (64 + k'.val); omega)]

/-- Unpairing the combine of the paired arrays is the layer of the unpaired ones. -/
theorem unpack_combine (r : Bool) (A X : (⟨S50000x64, .f32⟩ : BufTy).Contents (Elt Ideal))
    (Wrel : (⟨S64x64, .f32⟩ : BufTy).Contents (Elt Ideal)) (b : (⟨S64, .f32⟩ : BufTy).Contents (Elt Ideal))
    (Wroot : (⟨S64x64, .f32⟩ : BufTy).Contents (Elt Ideal)) :
    unpackK (F := Ideal) (combine r (packK (F := Ideal) A) (packK (F := Ideal) X) (bdK (F := Ideal) Wrel) (rowK (F := Ideal) b) (bdK (F := Ideal) Wroot))
      = layerR r A X Wrel b Wroot := by
  funext i
  obtain ⟨n, c, rfl⟩ : ∃ (n : Fin 50000) (c : Fin 64), i = ix2 n c := ⟨i 0, i 1, eq_ix2 i⟩
  rw [layerR_apply]
  rcases Nat.mod_two_eq_zero_or_one n.val with h | h
  · rw [unpackK_apply _ n c ⟨n.val / 2, by omega⟩ ⟨c.val, by omega⟩
        (by show n.val / 2 * 128 + c.val = n.val * 64 + c.val; omega),
      combine_apply, pair_sum_even A Wrel n c h, pair_sum_even X Wroot n c h, rowK_lo]
    exact congrArg (reluIf r) (add_right_comm _ _ _)
  · rw [unpackK_apply _ n c ⟨n.val / 2, by omega⟩ ⟨64 + c.val, by omega⟩
        (by show n.val / 2 * 128 + (64 + c.val) = n.val * 64 + c.val; omega),
      combine_apply, pair_sum_odd A Wrel n c h, pair_sum_odd X Wroot n c h, rowK_hi]
    exact congrArg (reluIf r) (add_right_comm _ _ _)

/-- One layer as the kernel's program computes it is the layer of the neighbour sums and the features. -/
theorem layerK_eq (r : Bool) (X : (⟨S50000x64, .f32⟩ : BufTy).Contents (Elt Ideal))
    (s d : (⟨S800000, .i32⟩ : BufTy).Contents (Elt Ideal))
    (Wrel : (⟨S64x64, .f32⟩ : BufTy).Contents (Elt Ideal)) (b : (⟨S64, .f32⟩ : BufTy).Contents (Elt Ideal))
    (Wroot : (⟨S64x64, .f32⟩ : BufTy).Contents (Elt Ideal)) :
    layerK r X s d Wrel b Wroot = layerR r (aggK (F := Ideal) X s d) X Wrel b Wroot :=
  unpack_combine r _ X Wrel b Wroot

end Cert.GConv

end
-- ==== Proof.Bridge.lean ====
/-
  The two programs' stacks are one function. The neighbour sum is the same host operations in both programs (gather
  the source rows, scatter-add at the destination rows), and a layer as the kernel's program computes it — on rows
  paired to 128 lanes against a block-diagonal weight — is the layer itself; so the kernel's three layers are the
  reference's three layers of the same arguments.
-/
import proofs.«118596_j89790586290566_2_alg».proof.Proof.KMath
import proofs.«118596_j89790586290566_2_alg».proof.Proof.RDefs

noncomputable section

namespace Cert.GConv

open Idealize.ShloMosaic

/-- The neighbour sum of the kernel's program, taken at the two rows of the edge list, is the reference's. -/
theorem agg_bridge (X : (⟨Cert.KernelIdeal.S50000x64, .f32⟩ : BufTy).Contents (Elt Ideal))
    (E : (⟨Cert.KernelIdeal.S2x800000, .i32⟩ : BufTy).Contents (Elt Ideal)) :
    aggK (F := Ideal) X (srcOf (F := Ideal) E) (dstOf (F := Ideal) E) = aggR (F := Ideal) X E := by
  unfold aggK aggR srcOf dstOf
  rfl

/-- Three layers as the kernel's program computes them are three layers as the reference computes them. -/
theorem stack_eq (X : (⟨Cert.KernelIdeal.S50000x64, .f32⟩ : BufTy).Contents (Elt Ideal))
    (E : (⟨Cert.KernelIdeal.S2x800000, .i32⟩ : BufTy).Contents (Elt Ideal))
    (W2 W4 W5 W7 W8 W10 : (⟨Cert.KernelIdeal.S64x64, .f32⟩ : BufTy).Contents (Elt Ideal))
    (b3 b6 b9 : (⟨Cert.KernelIdeal.S64, .f32⟩ : BufTy).Contents (Elt Ideal)) :
    layerK false
        (layerK true (layerK true X (srcOf (F := Ideal) E) (dstOf (F := Ideal) E) W2 b3 W4)
          (srcOf (F := Ideal) E) (dstOf (F := Ideal) E) W5 b6 W7)
        (srcOf (F := Ideal) E) (dstOf (F := Ideal) E) W8 b9 W10
      = layerR false
          (aggR (F := Ideal) (layerR true (aggR (F := Ideal) (layerR true (aggR (F := Ideal) X E) X W2 b3 W4) E)
            (layerR true (aggR (F := Ideal) X E) X W2 b3 W4) W5 b6 W7) E)
          (layerR true (aggR (F := Ideal) (layerR true (aggR (F := Ideal) X E) X W2 b3 W4) E)
            (layerR true (aggR (F := Ideal) X E) X W2 b3 W4) W5 b6 W7)
          W8 b9 W10 := by
  rw [layerK_eq, layerK_eq, layerK_eq, agg_bridge, agg_bridge, agg_bridge]

end Cert.GConv

end
-- ==== Proof.lean ====
/-
  A three-layer GraphConv stack: per layer the neighbour sums `A = segment_sum(X[src], dst)` on the host, then
  `A · Wrelᵀ + b + X · Wrootᵀ` (and the positive part between layers). The kernel's program computes the second step in
  one pallas_call per layer on a lane-dense view — two adjacent node rows as one row of 128, a 128x128 block-diagonal
  weight [[Wᵀ,0],[0,Wᵀ]], the bias doubled — and adds the bias last; the reference computes it directly and adds the
  bias between the two products.

  At the ideal values the two are one function of the arguments. The off-diagonal blocks contribute products with
  the zero literal, which vanish for every extended real, so each 128-term lane sum is the 64-term sum of the node's
  own row; addition of extended reals is commutative and associative, so the place of the bias does not matter; the
  changes of float format on the way into the products are the identity; and the neighbour sum is the same host
  operations in both programs. No finiteness of the inputs is used.

  The frames of the two kernel programs are the generated ones; the reference's is its generated run with the result
  dropped; the idealization rewrote nothing, so `preserves` is trivial.
-/
import proofs.«118596_j89790586290566_2_alg».proof.Defs
import proofs.«118596_j89790586290566_2_alg».proof.Proof.Gen.Kernel
import proofs.«118596_j89790586290566_2_alg».proof.Proof.Gen.Kernel.Skeleton
import proofs.«118596_j89790586290566_2_alg».proof.Proof.Gen.Kernel.Launch
import proofs.«118596_j89790586290566_2_alg».proof.Proof.Gen.Kernel.Points
import proofs.«118596_j89790586290566_2_alg».proof.Proof.Gen.Kernel.Frame
import proofs.«118596_j89790586290566_2_alg».proof.Proof.Gen.KernelIdeal
import proofs.«118596_j89790586290566_2_alg».proof.Proof.Gen.KernelIdeal.Skeleton
import proofs.«118596_j89790586290566_2_alg».proof.Proof.Gen.KernelIdeal.Launch
import proofs.«118596_j89790586290566_2_alg».proof.Proof.Gen.KernelIdeal.Points
import proofs.«118596_j89790586290566_2_alg».proof.Proof.Gen.KernelIdeal.Frame
import proofs.«118596_j89790586290566_2_alg».proof.Proof.Gen.ReferenceIdeal
import proofs.«118596_j89790586290566_2_alg».proof.Proof.Gen.Pre_finite_inputs
import proofs.«118596_j89790586290566_2_alg».proof.Proof.Gen.ReferenceIdeal.Run
import proofs.«118596_j89790586290566_2_alg».proof.Proof.Gen.ReferenceIdeal.Read
import proofs.«118596_j89790586290566_2_alg».proof.Proof.KRun
import proofs.«118596_j89790586290566_2_alg».proof.Proof.KValue
import proofs.«118596_j89790586290566_2_alg».proof.Proof.RefValue
import proofs.«118596_j89790586290566_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at its three layers of the arguments, the reference's at its own three layers of
    arguments that agree: one function. -/
theorem algebraic : Cert.algebraic_KernelIdeal_ReferenceIdeal := by
  intro m ρ m' ρ' _ hagree
  refine ⟨fun c => Cert.KernelIdeal.Gen.W7 (F := Ideal) m ρ c (Proc.devRef .tc Cert.KernelIdeal.main_v81),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  beta_reduce
  rw [Cert.GConv.ref_value m' c, Cert.GConv.kernel_value m ρ c, e0, e1, e2, e3, e4, e5, e6, e7, e8, e9, e10]
  exact (Cert.GConv.stack_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
